-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100000 : Shape := ⟨2, ![1024, 100000]⟩
abbrev S1024x200 : Shape := ⟨2, ![1024, 200]⟩
abbrev S1024 : Shape := ⟨1, ![1024]⟩
abbrev S100000 : Shape := ⟨1, ![100000]⟩
abbrev S1000x256 : Shape := ⟨2, ![1000, 256]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_
  reducesTo_S_S_d : S_.ReducesTo [] S_

variable [Facts]

def fn {F : FTy → Type} [FloatOps F] (main_arg0 : FVec F S1024x100000 .f32) (main_arg1 : IVec S1024x200 32) (main_arg2 : IVec S1024 32) (main_arg3 : IVec S100000 32) (main_arg4 : FVec F S1000x256 .f32) (main_arg5 : FVec F S_ .f32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_v4 : FVec F S1000x256 .f32 := Host.absf main_arg4
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  let main_v9 : FVec F S_ .f32 := Host.absf main_arg5
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S1024x100000 : Shape := ⟨2, ![1024, 100000]⟩
abbrev S1024x200 : Shape := ⟨2, ![1024, 200]⟩
abbrev S1024 : Shape := ⟨1, ![1024]⟩
abbrev S100000 : Shape := ⟨1, ![100000]⟩
abbrev S1000x256 : Shape := ⟨2, ![1000, 256]⟩
abbrev S_ : Shape := ⟨0, ![]⟩
abbrev S1024x1 : Shape := ⟨2, ![1024, 1]⟩
abbrev S10 : Shape := ⟨1, ![10]⟩
abbrev S1x10 : Shape := ⟨2, ![1, 10]⟩
abbrev S1024x10 : Shape := ⟨2, ![1024, 10]⟩
abbrev S1024x10x1 : Shape := ⟨3, ![1024, 10, 1]⟩
abbrev S1 : Shape := ⟨1, ![1]⟩
abbrev S1x1x1 : Shape := ⟨3, ![1, 1, 1]⟩
abbrev S1024x10x256 : Shape := ⟨3, ![1024, 10, 256]⟩
abbrev S1024x256 : Shape := ⟨2, ![1024, 256]⟩
abbrev S100000x1 : Shape := ⟨2, ![100000, 1]⟩
abbrev S100000x256 : Shape := ⟨2, ![100000, 256]⟩
abbrev S1024x102400 : Shape := ⟨2, ![1024, 102400]⟩
abbrev S102400x256 : Shape := ⟨2, ![102400, 256]⟩
abbrev S256x4096 : Shape := ⟨2, ![256, 4096]⟩
abbrev S256x256 : Shape := ⟨2, ![256, 256]⟩
abbrev S4096x256 : Shape := ⟨2, ![4096, 256]⟩

abbrev nBuf : Space → Nat
  | .hbm => 109
  | .vmem => 8
  | .smem => 0
  | _ => 0

abbrev bufTy : (tb : Table) → Fin (tcTables nBuf tb) → BufTy
  | .hbm, ⟨0, _⟩ => ⟨S1024x100000, .f32⟩
  | .hbm, ⟨1, _⟩ => ⟨S1024x200, .i32⟩
  | .hbm, ⟨2, _⟩ => ⟨S1024, .i32⟩
  | .hbm, ⟨3, _⟩ => ⟨S100000, .i32⟩
  | .hbm, ⟨4, _⟩ => ⟨S1000x256, .f32⟩
  | .hbm, ⟨5, _⟩ => ⟨S_, .f32⟩
  | .hbm, ⟨6, _⟩ => ⟨S1024x1, .i32⟩
  | .hbm, ⟨7, _⟩ => ⟨S_, .i32⟩
  | .hbm, ⟨8, _⟩ => ⟨S1024x1, .i32⟩
  | .hbm, ⟨9, _⟩ => ⟨S1024x1, .i32⟩
  | .hbm, ⟨10, _⟩ => ⟨S10, .i32⟩
  | .hbm, ⟨11, _⟩ => ⟨S1x10, .i32⟩
  | .hbm, ⟨12, _⟩ => ⟨S1024x10, .i32⟩
  | .hbm, ⟨13, _⟩ => ⟨S1024x10, .i32⟩
  | .hbm, ⟨14, _⟩ => ⟨S1024x10, .i32⟩
  | .hbm, ⟨15, _⟩ => ⟨S_, .i32⟩
  | .hbm, ⟨16, _⟩ => ⟨S1024x10, .i32⟩
  | .hbm, ⟨17, _⟩ => ⟨S1024x10, .i1⟩
  | .hbm, ⟨18, _⟩ => ⟨S1024x1, .i32⟩
  | .hbm, ⟨19, _⟩ => ⟨S_, .i32⟩
  | .hbm, ⟨20, _⟩ => ⟨S1024x1, .i32⟩
  | .hbm, ⟨21, _⟩ => ⟨S1024x1, .i1⟩
  | .hbm, ⟨22, _⟩ => ⟨S1024x10, .i1⟩
  | .hbm, ⟨23, _⟩ => ⟨S1024x10, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1024x10, .i32⟩
  | .hbm, ⟨28, _⟩ => ⟨S1024x10, .i32⟩
  | .hbm, ⟨29, _⟩ => ⟨S_, .i32⟩
  | .hbm, ⟨30, _⟩ => ⟨S1024x10, .i32⟩
  | .hbm, ⟨31, _⟩ => ⟨S1024x10, .i32⟩
  | .hbm, ⟨32, _⟩ => ⟨S_, .i32⟩
  | .hbm, ⟨33, _⟩ => ⟨S1024x10, .i32⟩
  | .hbm, ⟨34, _⟩ => ⟨S1024x10, .i1⟩
  | .hbm, ⟨35, _⟩ => ⟨S_, .i32⟩
  | .hbm, ⟨36, _⟩ => ⟨S1024x10, .i32⟩
  | .hbm, ⟨37, _⟩ => ⟨S1024x10, .i32⟩
  | .hbm, ⟨38, _⟩ => ⟨S1024x10, .i32⟩
  | .hbm, ⟨39, _⟩ => ⟨S1024x10x1, .i32⟩
  | .hbm, ⟨40, _⟩ => ⟨S1, .i32⟩
  | .hbm, ⟨41, _⟩ => ⟨S_, .i32⟩
  | .hbm, ⟨42, _⟩ => ⟨S1024x10x1, .i32⟩
  | .hbm, ⟨43, _⟩ => ⟨S1024x10x1, .i1⟩
  | .hbm, ⟨44, _⟩ => ⟨S1x1x1, .i32⟩
  | .hbm, ⟨45, _⟩ => ⟨S1024x10x1, .i32⟩
  | .hbm, ⟨46, _⟩ => ⟨S1024x10x1, .i1⟩
  | .hbm, ⟨47, _⟩ => ⟨S1024x10x1, .i1⟩
  | .hbm, ⟨48, _⟩ => ⟨S_, .i1⟩
  | .hbm, ⟨49, _⟩ => ⟨S1024x10, .i1⟩
  | .hbm, ⟨50, _⟩ => ⟨S1024x10, .i32⟩
  | .hbm, ⟨51, _⟩ => ⟨S_, .i32⟩
  | .hbm, ⟨52, _⟩ => ⟨S1024x10, .i32⟩
  | .hbm, ⟨53, _⟩ => ⟨S1024x10, .i32⟩
  | .hbm, ⟨54, _⟩ => ⟨S_, .i32⟩
  | .hbm, ⟨55, _⟩ => ⟨S1024x10, .i32⟩
  | .hbm, ⟨56, _⟩ => ⟨S1024x10, .i1⟩
  | .hbm, ⟨57, _⟩ => ⟨S_, .i32⟩
  | .hbm, ⟨58, _⟩ => ⟨S1024x10, .i32⟩
  | .hbm, ⟨59, _⟩ => ⟨S1024x10, .i32⟩
  | .hbm, ⟨60, _⟩ => ⟨S1024x10, .i32⟩
  | .hbm, ⟨61, _⟩ => ⟨S1024x10x1, .i32⟩
  | .hbm, ⟨62, _⟩ => ⟨S1024x10, .i32⟩
  | .hbm, ⟨63, _⟩ => ⟨S_, .i32⟩
  | .hbm, ⟨64, _⟩ => ⟨S1024x10, .i32⟩
  | .hbm, ⟨65, _⟩ => ⟨S1024x10, .i1⟩
  | .hbm, ⟨66, _⟩ => ⟨S_, .i32⟩
  | .hbm, ⟨67, _⟩ => ⟨S1024x10, .i32⟩
  | .hbm, ⟨68, _⟩ => ⟨S1024x10, .i32⟩
  | .hbm, ⟨69, _⟩ => ⟨S1024x10, .i32⟩
  | .hbm, ⟨70, _⟩ => ⟨S1024x10x1, .i32⟩
  | .hbm, ⟨71, _⟩ => ⟨S1024x10x256, .f32⟩
  | .hbm, ⟨72, _⟩ => ⟨S1024x10x1, .i1⟩
  | .hbm, ⟨73, _⟩ => ⟨S1024x10x1, .f32⟩
  | .hbm, ⟨74, _⟩ => ⟨S_, .f32⟩
  | .hbm, ⟨75, _⟩ => ⟨S1024x1, .f32⟩
  | .hbm, ⟨76, _⟩ => ⟨S_, .f32⟩
  | .hbm, ⟨77, _⟩ => ⟨S1024x1, .f32⟩
  | .hbm, ⟨78, _⟩ => ⟨S1024x1, .f32⟩
  | .hbm, ⟨79, _⟩ => ⟨S1024x10x256, .f32⟩
  | .hbm, ⟨80, _⟩ => ⟨S1024x10x256, .f32⟩
  | .hbm, ⟨81, _⟩ => ⟨S_, .f32⟩
  | .hbm, ⟨82, _⟩ => ⟨S1024x256, .f32⟩
  | .hbm, ⟨83, _⟩ => ⟨S1024x256, .f32⟩
  | .hbm, ⟨84, _⟩ => ⟨S1024x256, .f32⟩
  | .hbm, ⟨85, _⟩ => ⟨S_, .i32⟩
  | .hbm, ⟨86, _⟩ => ⟨S100000, .i32⟩
  | .hbm, ⟨87, _⟩ => ⟨S100000, .i1⟩
  | .hbm, ⟨88, _⟩ => ⟨S_, .i32⟩
  | .hbm, ⟨89, _⟩ => ⟨S100000, .i32⟩
  | .hbm, ⟨90, _⟩ => ⟨S100000, .i32⟩
  | .hbm, ⟨91, _⟩ => ⟨S100000, .i32⟩
  | .hbm, ⟨92, _⟩ => ⟨S100000x1, .i32⟩
  | .hbm, ⟨93, _⟩ => ⟨S100000x256, .f32⟩
  | .hbm, ⟨94, _⟩ => ⟨S1024x256, .f32⟩
  | .hbm, ⟨95, _⟩ => ⟨S1024x256, .f32⟩
  | .hbm, ⟨96, _⟩ => ⟨S_, .i32⟩
  | .hbm, ⟨97, _⟩ => ⟨S_, .f32⟩
  | .hbm, ⟨98, _⟩ => ⟨S1024x102400, .f32⟩
  | .hbm, ⟨99, _⟩ => ⟨S_, .i32⟩
  | .hbm, ⟨100, _⟩ => ⟨S_, .f32⟩
  | .hbm, ⟨101, _⟩ => ⟨S102400x256, .f32⟩
  | .hbm, ⟨102, _⟩ => ⟨S_, .i32⟩
  | .hbm, ⟨103, _⟩ => ⟨S_, .f32⟩
  | .hbm, ⟨104, _⟩ => ⟨S1024x256, .f32⟩
  | .hbm, ⟨105, _⟩ => ⟨S1024x256, .bf16⟩
  | .hbm, ⟨106, _⟩ => ⟨S102400x256, .bf16⟩
  | .hbm, ⟨107, _⟩ => ⟨S1024x102400, .f32⟩
  | .hbm, ⟨108, _⟩ => ⟨S1024x100000, .f32⟩
  | .local _ .vmem, ⟨0, _⟩ => ⟨S256x4096, .f32⟩
  | .local _ .vmem, ⟨1, _⟩ => ⟨S256x4096, .f32⟩
  | .local _ .vmem, ⟨2, _⟩ => ⟨S256x256, .bf16⟩
  | .local _ .vmem, ⟨3, _⟩ => ⟨S256x256, .bf16⟩
  | .local _ .vmem, ⟨4, _⟩ => ⟨S4096x256, .bf16⟩
  | .local _ .vmem, ⟨5, _⟩ => ⟨S4096x256, .bf16⟩
  | .local _ .vmem, ⟨6, _⟩ => ⟨S256x4096, .f32⟩
  | .local _ .vmem, ⟨7, _⟩ => ⟨S256x4096, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_c_3 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v15 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_c_4 : Ref sig .tc := ⟨.hbm, 51, rfl⟩
abbrev main_call1_v14 : Ref sig .tc := ⟨.hbm, 52, rfl⟩
abbrev main_v16 : Ref sig .tc := ⟨.hbm, 53, rfl⟩
abbrev main_c_4 : Ref sig .tc := ⟨.hbm, 54, rfl⟩
abbrev main_v17 : Ref sig .tc := ⟨.hbm, 55, rfl⟩
abbrev main_v18 : Ref sig .tc := ⟨.hbm, 56, rfl⟩
abbrev main_c_5 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_c_6 : Ref sig .tc := ⟨.hbm, 63, rfl⟩
abbrev main_v24 : Ref sig .tc := ⟨.hbm, 64, rfl⟩
abbrev main_v25 : Ref sig .tc := ⟨.hbm, 65, rfl⟩
abbrev main_c_7 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst : Ref sig .tc := ⟨.hbm, 74, rfl⟩
abbrev main_v33 : Ref sig .tc := ⟨.hbm, 75, rfl⟩
abbrev main_cst_8 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_9 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_c_10 : Ref sig .tc := ⟨.hbm, 85, rfl⟩
abbrev main_v41 : Ref sig .tc := ⟨.hbm, 86, rfl⟩
abbrev main_v42 : Ref sig .tc := ⟨.hbm, 87, rfl⟩
abbrev main_c_11 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_c_12 : Ref sig .tc := ⟨.hbm, 96, rfl⟩
abbrev main_call2_v0 : Ref sig .tc := ⟨.hbm, 97, rfl⟩
abbrev main_v50 : Ref sig .tc := ⟨.hbm, 98, rfl⟩
abbrev main_c_13 : Ref sig .tc := ⟨.hbm, 99, rfl⟩
abbrev main_call3_v0 : Ref sig .tc := ⟨.hbm, 100, rfl⟩
abbrev main_v51 : Ref sig .tc := ⟨.hbm, 101, rfl⟩
abbrev main_c_14 : Ref sig .tc := ⟨.hbm, 102, rfl⟩
abbrev main_call4_v0 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S10_S1x10_1 : S10.BroadcastsInDim S1x10 (![1] : Fin 1 → Fin S1x10.rank)
  bcast_S1024x1_S1024x10_0_1 : S1024x1.BroadcastsInDim S1024x10 (![0, 1] : Fin 2 → Fin S1024x10.rank)
  bcast_S1x10_S1024x10_0_1 : S1x10.BroadcastsInDim S1024x10 (![0, 1] : Fin 2 → Fin S1024x10.rank)
  bcast_S_S1024x10 : S_.BroadcastsInDim S1024x10 (![] : Fin 0 → Fin S1024x10.rank)
  shapeCasts_S1024x10_S1024x10x1 : S1024x10.ShapeCasts S1024x10x1
  bcast_S_S1024x10x1 : S_.BroadcastsInDim S1024x10x1 (![] : Fin 0 → Fin S1024x10x1.rank)
  bcast_S1_S1x1x1_2 : S1.BroadcastsInDim S1x1x1 (![2] : Fin 1 → Fin S1x1x1.rank)
  bcast_S1x1x1_S1024x10x1_0_1_2 : S1x1x1.BroadcastsInDim S1024x10x1 (![0, 1, 2] : Fin 3 → Fin S1024x10x1.rank)
  reducesTo_S1024x10x1_S1024x10_d2 : S1024x10x1.ReducesTo [2] S1024x10
  h_S_ : 0 < S_.numel
  bcast_S1024x10_S1024x10x1_0_1 : S1024x10.BroadcastsInDim S1024x10x1 (![0, 1] : Fin 2 → Fin S1024x10x1.rank)
  reducesTo_S1024x10x1_S1024x1_d1 : S1024x10x1.ReducesTo [1] S1024x1
  bcast_S1024x10x1_S1024x10x256_0_1_2 : S1024x10x1.BroadcastsInDim S1024x10x256 (![0, 1, 2] : Fin 3 → Fin S1024x10x256.rank)
  reducesTo_S1024x10x256_S1024x256_d1 : S1024x10x256.ReducesTo [1] S1024x256
  bcast_S1024x1_S1024x256_0_1 : S1024x1.BroadcastsInDim S1024x256 (![0, 1] : Fin 2 → Fin S1024x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S1024x256 : S_.BroadcastsInDim S1024x256 (![] : Fin 0 → Fin S1024x256.rank)
  pads_S1024x100000_S1024x102400_000_024000 : S1024x100000.Pads (![0, 0] : Fin 2 → Nat) ![0, 2400] ![0, 0] S1024x102400
  pads_S100000x256_S102400x256_024000_000 : S100000x256.Pads (![0, 0] : Fin 2 → Nat) ![2400, 0] ![0, 0] S102400x256
  pads_S1024x256_S1024x256_000_000 : S1024x256.Pads (![0, 0] : Fin 2 → Nat) ![0, 0] ![0, 0] S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  transposes_S4096x256_p1_0_S256x4096 : S4096x256.Transposes [1, 0] S256x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  slices_S1024x102400_S1024x100000_0_0 : S1024x102400.Slices ![0, 0] S1024x100000
  gather_S1024x200_S1024x10x1_S1024x10_n_1_0_0_1_2_11_wf : GatherDims.WF S1024x200 S1024x10x1 S1024x10 [] [1] [0] [1] [0] 2 ![1, 1]
  gather_S100000_S1024x10x1_S1024x10_n_0_n_n_0_2_1_wf : GatherDims.WF S100000 S1024x10x1 S1024x10 [] [0] [] [0] [] 2 ![1]
  gather_S1000x256_S1024x10x1_S1024x10x256_2_0_n_n_0_2_1256_wf : GatherDims.WF S1000x256 S1024x10x1 S1024x10x256 [2] [0] [] [0] [] 2 ![1, 256]
  gather_S1000x256_S100000x1_S100000x256_1_0_n_n_0_1_1256_wf : GatherDims.WF S1000x256 S100000x1 S100000x256 [1] [0] [] [0] [] 1 ![1, 256]
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S1024x102400.size a
  hwx0_0 : ∀ i : grid0.Coords, EltTy.bits .f32 = 32 ∨ (Rect.block (s := S1024x102400) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S1024x256.size a
  hwx0_1 : ∀ i : grid0.Coords, EltTy.bits .bf16 = 32 ∨ (Rect.block (s := S1024x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S102400x256.size a
  hwx0_2 : ∀ i : grid0.Coords, EltTy.bits .bf16 = 32 ∨ (Rect.block (s := S102400x256) S4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S1024x102400.size a
  hwx0_3 : ∀ i : grid0.Coords, EltTy.bits .f32 = 32 ∨ (Rect.block (s := S1024x102400) S256x4096.size (cc0_transform_3 i) (hinb0_3 i)).WholeWords (EltTy.packing .f32)

variable [Facts₀]

def gather_S1024x200_S1024x10x1_S1024x10_n_1_0_0_1_2_11 : GatherDims S1024x200 S1024x10x1 S1024x10 where
  offsetDims := []
  collapsedSliceDims := [1]
  operandBatchingDims := [0]
  startIndicesBatchingDims := [0]
  startIndexMap := [1]
  indexVectorDim := 2
  sliceSizes := ![1, 1]
  wf := gather_S1024x200_S1024x10x1_S1024x10_n_1_0_0_1_2_11_wf
def gather_S100000_S1024x10x1_S1024x10_n_0_n_n_0_2_1 : GatherDims S100000 S1024x10x1 S1024x10 where
  offsetDims := []
  collapsedSliceDims := [0]
  operandBatchingDims := []
  startIndicesBatchingDims := []
  startIndexMap := [0]
  indexVectorDim := 2
  sliceSizes := ![1]
  wf := gather_S100000_S1024x10x1_S1024x10_n_0_n_n_0_2_1_wf
def gather_S1000x256_S1024x10x1_S1024x10x256_2_0_n_n_0_2_1256 : GatherDims S1000x256 S1024x10x1 S1024x10x256 where
  offsetDims := [2]
  collapsedSliceDims := [0]
  operandBatchingDims := []
  startIndicesBatchingDims := []
  startIndexMap := [0]
  indexVectorDim := 2
  sliceSizes := ![1, 256]
  wf := gather_S1000x256_S1024x10x1_S1024x10x256_2_0_n_n_0_2_1256_wf
def gather_S1000x256_S100000x1_S100000x256_1_0_n_n_0_1_1256 : GatherDims S1000x256 S100000x1 S100000x256 where
  offsetDims := [1]
  collapsedSliceDims := [0]
  operandBatchingDims := []
  startIndicesBatchingDims := []
  startIndexMap := [0]
  indexVectorDim := 1
  sliceSizes := ![1, 256]
  wf := gather_S1000x256_S100000x1_S100000x256_1_0_n_n_0_1_1256_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_v50) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v55) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x100000 : Shape := ⟨2, ![1024, 100000]⟩
abbrev S1024x200 : Shape := ⟨2, ![1024, 200]⟩
abbrev S1024 : Shape := ⟨1, ![1024]⟩
abbrev S100000 : Shape := ⟨1, ![100000]⟩
abbrev S1000x256 : Shape := ⟨2, ![1000, 256]⟩
abbrev S_ : Shape := ⟨0, ![]⟩
abbrev S1024x1 : Shape := ⟨2, ![1024, 1]⟩
abbrev S10 : Shape := ⟨1, ![10]⟩
abbrev S1x10 : Shape := ⟨2, ![1, 10]⟩
abbrev S1024x10 : Shape := ⟨2, ![1024, 10]⟩
abbrev S1024x10x1 : Shape := ⟨3, ![1024, 10, 1]⟩
abbrev S1 : Shape := ⟨1, ![1]⟩
abbrev S1x1x1 : Shape := ⟨3, ![1, 1, 1]⟩
abbrev S1024x10x256 : Shape := ⟨3, ![1024, 10, 256]⟩
abbrev S1024x256 : Shape := ⟨2, ![1024, 256]⟩
abbrev S100000x1 : Shape := ⟨2, ![100000, 1]⟩
abbrev S100000x256 : Shape := ⟨2, ![100000, 256]⟩

abbrev nBuf : Space → Nat
  | .hbm => 98
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024x200, .i32⟩
  | .hbm, ⟨2, _⟩ => ⟨S1024, .i32⟩
  | .hbm, ⟨3, _⟩ => ⟨S100000, .i32⟩
  | .hbm, ⟨4, _⟩ => ⟨S1000x256, .f32⟩
  | .hbm, ⟨5, _⟩ => ⟨S_, .f32⟩
  | .hbm, ⟨6, _⟩ => ⟨S1024x1, .i32⟩
  | .hbm, ⟨7, _⟩ => ⟨S_, .i32⟩
  | .hbm, ⟨8, _⟩ => ⟨S1024x1, .i32⟩
  | .hbm, ⟨9, _⟩ => ⟨S1024x1, .i32⟩
  | .hbm, ⟨10, _⟩ => ⟨S10, .i32⟩
  | .hbm, ⟨11, _⟩ => ⟨S1x10, .i32⟩
  | .hbm, ⟨12, _⟩ => ⟨S1024x10, .i32⟩
  | .hbm, ⟨13, _⟩ => ⟨S1024x10, .i32⟩
  | .hbm, ⟨14, _⟩ => ⟨S1024x10, .i32⟩
  | .hbm, ⟨15, _⟩ => ⟨S_, .i32⟩
  | .hbm, ⟨16, _⟩ => ⟨S1024x10, .i32⟩
  | .hbm, ⟨17, _⟩ => ⟨S1024x10, .i1⟩
  | .hbm, ⟨18, _⟩ => ⟨S1024x1, .i32⟩
  | .hbm, ⟨19, _⟩ => ⟨S_, .i32⟩
  | .hbm, ⟨20, _⟩ => ⟨S1024x1, .i32⟩
  | .hbm, ⟨21, _⟩ => ⟨S1024x1, .i1⟩
  | .hbm, ⟨22, _⟩ => ⟨S1024x10, .i1⟩
  | .hbm, ⟨23, _⟩ => ⟨S1024x10, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1024x10, .i32⟩
  | .hbm, ⟨28, _⟩ => ⟨S1024x10, .i32⟩
  | .hbm, ⟨29, _⟩ => ⟨S_, .i32⟩
  | .hbm, ⟨30, _⟩ => ⟨S1024x10, .i32⟩
  | .hbm, ⟨31, _⟩ => ⟨S1024x10, .i32⟩
  | .hbm, ⟨32, _⟩ => ⟨S_, .i32⟩
  | .hbm, ⟨33, _⟩ => ⟨S1024x10, .i32⟩
  | .hbm, ⟨34, _⟩ => ⟨S1024x10, .i1⟩
  | .hbm, ⟨35, _⟩ => ⟨S_, .i32⟩
  | .hbm, ⟨36, _⟩ => ⟨S1024x10, .i32⟩
  | .hbm, ⟨37, _⟩ => ⟨S1024x10, .i32⟩
  | .hbm, ⟨38, _⟩ => ⟨S1024x10, .i32⟩
  | .hbm, ⟨39, _⟩ => ⟨S1024x10x1, .i32⟩
  | .hbm, ⟨40, _⟩ => ⟨S1, .i32⟩
  | .hbm, ⟨41, _⟩ => ⟨S_, .i32⟩
  | .hbm, ⟨42, _⟩ => ⟨S1024x10x1, .i32⟩
  | .hbm, ⟨43, _⟩ => ⟨S1024x10x1, .i1⟩
  | .hbm, ⟨44, _⟩ => ⟨S1x1x1, .i32⟩
  | .hbm, ⟨45, _⟩ => ⟨S1024x10x1, .i32⟩
  | .hbm, ⟨46, _⟩ => ⟨S1024x10x1, .i1⟩
  | .hbm, ⟨47, _⟩ => ⟨S1024x10x1, .i1⟩
  | .hbm, ⟨48, _⟩ => ⟨S_, .i1⟩
  | .hbm, ⟨49, _⟩ => ⟨S1024x10, .i1⟩
  | .hbm, ⟨50, _⟩ => ⟨S1024x10, .i32⟩
  | .hbm, ⟨51, _⟩ => ⟨S_, .i32⟩
  | .hbm, ⟨52, _⟩ => ⟨S1024x10, .i32⟩
  | .hbm, ⟨53, _⟩ => ⟨S1024x10, .i32⟩
  | .hbm, ⟨54, _⟩ => ⟨S_, .i32⟩
  | .hbm, ⟨55, _⟩ => ⟨S1024x10, .i32⟩
  | .hbm, ⟨56, _⟩ => ⟨S1024x10, .i1⟩
  | .hbm, ⟨57, _⟩ => ⟨S_, .i32⟩
  | .hbm, ⟨58, _⟩ => ⟨S1024x10, .i32⟩
  | .hbm, ⟨59, _⟩ => ⟨S1024x10, .i32⟩
  | .hbm, ⟨60, _⟩ => ⟨S1024x10, .i32⟩
  | .hbm, ⟨61, _⟩ => ⟨S1024x10x1, .i32⟩
  | .hbm, ⟨62, _⟩ => ⟨S1024x10, .i32⟩
  | .hbm, ⟨63, _⟩ => ⟨S_, .i32⟩
  | .hbm, ⟨64, _⟩ => ⟨S1024x10, .i32⟩
  | .hbm, ⟨65, _⟩ => ⟨S1024x10, .i1⟩
  | .hbm, ⟨66, _⟩ => ⟨S_, .i32⟩
  | .hbm, ⟨67, _⟩ => ⟨S1024x10, .i32⟩
  | .hbm, ⟨68, _⟩ => ⟨S1024x10, .i32⟩
  | .hbm, ⟨69, _⟩ => ⟨S1024x10, .i32⟩
  | .hbm, ⟨70, _⟩ => ⟨S1024x10x1, .i32⟩
  | .hbm, ⟨71, _⟩ => ⟨S1024x10x256, .f32⟩
  | .hbm, ⟨72, _⟩ => ⟨S1024x10x1, .i1⟩
  | .hbm, ⟨73, _⟩ => ⟨S1024x10x1, .f32⟩
  | .hbm, ⟨74, _⟩ => ⟨S_, .f32⟩
  | .hbm, ⟨75, _⟩ => ⟨S1024x1, .f32⟩
  | .hbm, ⟨76, _⟩ => ⟨S_, .f32⟩
  | .hbm, ⟨77, _⟩ => ⟨S1024x1, .f32⟩
  | .hbm, ⟨78, _⟩ => ⟨S1024x1, .f32⟩
  | .hbm, ⟨79, _⟩ => ⟨S1024x10x256, .f32⟩
  | .hbm, ⟨80, _⟩ => ⟨S1024x10x256, .f32⟩
  | .hbm, ⟨81, _⟩ => ⟨S_, .f32⟩
  | .hbm, ⟨82, _⟩ => ⟨S1024x256, .f32⟩
  | .hbm, ⟨83, _⟩ => ⟨S1024x256, .f32⟩
  | .hbm, ⟨84, _⟩ => ⟨S1024x256, .f32⟩
  | .hbm, ⟨85, _⟩ => ⟨S_, .i32⟩
  | .hbm, ⟨86, _⟩ => ⟨S100000, .i32⟩
  | .hbm, ⟨87, _⟩ => ⟨S100000, .i1⟩
  | .hbm, ⟨88, _⟩ => ⟨S_, .i32⟩
  | .hbm, ⟨89, _⟩ => ⟨S100000, .i32⟩
  | .hbm, ⟨90, _⟩ => ⟨S100000, .i32⟩
  | .hbm, ⟨91, _⟩ => ⟨S100000, .i32⟩
  | .hbm, ⟨92, _⟩ => ⟨S100000x1, .i32⟩
  | .hbm, ⟨93, _⟩ => ⟨S100000x256, .f32⟩
  | .hbm, ⟨94, _⟩ => ⟨S1024x100000, .f32⟩
  | .hbm, ⟨95, _⟩ => ⟨S1024x100000, .f32⟩
  | .hbm, ⟨96, _⟩ => ⟨S1024x100000, .f32⟩
  | .hbm, ⟨97, _⟩ => ⟨S1024x100000, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_c_3 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v15 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_c_4 : Ref sig .tc := ⟨.hbm, 51, rfl⟩
abbrev main_call1_v14 : Ref sig .tc := ⟨.hbm, 52, rfl⟩
abbrev main_v16 : Ref sig .tc := ⟨.hbm, 53, rfl⟩
abbrev main_c_4 : Ref sig .tc := ⟨.hbm, 54, rfl⟩
abbrev main_v17 : Ref sig .tc := ⟨.hbm, 55, rfl⟩
abbrev main_v18 : Ref sig .tc := ⟨.hbm, 56, rfl⟩
abbrev main_c_5 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_c_6 : Ref sig .tc := ⟨.hbm, 63, rfl⟩
abbrev main_v24 : Ref sig .tc := ⟨.hbm, 64, rfl⟩
abbrev main_v25 : Ref sig .tc := ⟨.hbm, 65, rfl⟩
abbrev main_c_7 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst : Ref sig .tc := ⟨.hbm, 74, rfl⟩
abbrev main_v33 : Ref sig .tc := ⟨.hbm, 75, rfl⟩
abbrev main_cst_8 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_9 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_c_10 : Ref sig .tc := ⟨.hbm, 85, rfl⟩
abbrev main_v41 : Ref sig .tc := ⟨.hbm, 86, rfl⟩
abbrev main_v42 : Ref sig .tc := ⟨.hbm, 87, rfl⟩
abbrev main_c_11 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S10_S1x10_1 : S10.BroadcastsInDim S1x10 (![1] : Fin 1 → Fin S1x10.rank)
  bcast_S1024x1_S1024x10_0_1 : S1024x1.BroadcastsInDim S1024x10 (![0, 1] : Fin 2 → Fin S1024x10.rank)
  bcast_S1x10_S1024x10_0_1 : S1x10.BroadcastsInDim S1024x10 (![0, 1] : Fin 2 → Fin S1024x10.rank)
  bcast_S_S1024x10 : S_.BroadcastsInDim S1024x10 (![] : Fin 0 → Fin S1024x10.rank)
  shapeCasts_S1024x10_S1024x10x1 : S1024x10.ShapeCasts S1024x10x1
  bcast_S_S1024x10x1 : S_.BroadcastsInDim S1024x10x1 (![] : Fin 0 → Fin S1024x10x1.rank)
  bcast_S1_S1x1x1_2 : S1.BroadcastsInDim S1x1x1 (![2] : Fin 1 → Fin S1x1x1.rank)
  bcast_S1x1x1_S1024x10x1_0_1_2 : S1x1x1.BroadcastsInDim S1024x10x1 (![0, 1, 2] : Fin 3 → Fin S1024x10x1.rank)
  reducesTo_S1024x10x1_S1024x10_d2 : S1024x10x1.ReducesTo [2] S1024x10
  h_S_ : 0 < S_.numel
  bcast_S1024x10_S1024x10x1_0_1 : S1024x10.BroadcastsInDim S1024x10x1 (![0, 1] : Fin 2 → Fin S1024x10x1.rank)
  reducesTo_S1024x10x1_S1024x1_d1 : S1024x10x1.ReducesTo [1] S1024x1
  bcast_S1024x10x1_S1024x10x256_0_1_2 : S1024x10x1.BroadcastsInDim S1024x10x256 (![0, 1, 2] : Fin 3 → Fin S1024x10x256.rank)
  reducesTo_S1024x10x256_S1024x256_d1 : S1024x10x256.ReducesTo [1] S1024x256
  bcast_S1024x1_S1024x256_0_1 : S1024x1.BroadcastsInDim S1024x256 (![0, 1] : Fin 2 → Fin S1024x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S1024x100000 : S_.BroadcastsInDim S1024x100000 (![] : Fin 0 → Fin S1024x100000.rank)
  gather_S1024x200_S1024x10x1_S1024x10_n_1_0_0_1_2_11_wf : GatherDims.WF S1024x200 S1024x10x1 S1024x10 [] [1] [0] [1] [0] 2 ![1, 1]
  gather_S100000_S1024x10x1_S1024x10_n_0_n_n_0_2_1_wf : GatherDims.WF S100000 S1024x10x1 S1024x10 [] [0] [] [0] [] 2 ![1]
  gather_S1000x256_S1024x10x1_S1024x10x256_2_0_n_n_0_2_1256_wf : GatherDims.WF S1000x256 S1024x10x1 S1024x10x256 [2] [0] [] [0] [] 2 ![1, 256]
  gather_S1000x256_S100000x1_S100000x256_1_0_n_n_0_1_1256_wf : GatherDims.WF S1000x256 S100000x1 S100000x256 [1] [0] [] [0] [] 1 ![1, 256]
  dot_S1024x256_S100000x256_S1024x100000_1_1_0_0_n_n_wf : DotDims.WF S1024x256 S100000x256 S1024x100000 [1] [1] [0] [0] [] []

variable [Facts₀]

def gather_S1024x200_S1024x10x1_S1024x10_n_1_0_0_1_2_11 : GatherDims S1024x200 S1024x10x1 S1024x10 where
  offsetDims := []
  collapsedSliceDims := [1]
  operandBatchingDims := [0]
  startIndicesBatchingDims := [0]
  startIndexMap := [1]
  indexVectorDim := 2
  sliceSizes := ![1, 1]
  wf := gather_S1024x200_S1024x10x1_S1024x10_n_1_0_0_1_2_11_wf
def gather_S100000_S1024x10x1_S1024x10_n_0_n_n_0_2_1 : GatherDims S100000 S1024x10x1 S1024x10 where
  offsetDims := []
  collapsedSliceDims := [0]
  operandBatchingDims := []
  startIndicesBatchingDims := []
  startIndexMap := [0]
  indexVectorDim := 2
  sliceSizes := ![1]
  wf := gather_S100000_S1024x10x1_S1024x10_n_0_n_n_0_2_1_wf
def gather_S1000x256_S1024x10x1_S1024x10x256_2_0_n_n_0_2_1256 : GatherDims S1000x256 S1024x10x1 S1024x10x256 where
  offsetDims := [2]
  collapsedSliceDims := [0]
  operandBatchingDims := []
  startIndicesBatchingDims := []
  startIndexMap := [0]
  indexVectorDim := 2
  sliceSizes := ![1, 256]
  wf := gather_S1000x256_S1024x10x1_S1024x10x256_2_0_n_n_0_2_1256_wf
def gather_S1000x256_S100000x1_S100000x256_1_0_n_n_0_1_1256 : GatherDims S1000x256 S100000x1 S100000x256 where
  offsetDims := [1]
  collapsedSliceDims := [0]
  operandBatchingDims := []
  startIndicesBatchingDims := []
  startIndexMap := [0]
  indexVectorDim := 1
  sliceSizes := ![1, 256]
  wf := gather_S1000x256_S100000x1_S100000x256_1_0_n_n_0_1_1256_wf
def dot_S1024x256_S100000x256_S1024x100000_1_1_0_0_n_n : DotDims S1024x256 S100000x256 S1024x100000 where
  lhsContracting := [1]
  rhsContracting := [1]
  lhsNonContracting := [0]
  rhsNonContracting := [0]
  lhsBatch := []
  rhsBatch := []
  wf := dot_S1024x256_S100000x256_S1024x100000_1_1_0_0_n_n_wf

class Facts : Prop extends Facts₀ where

variable [Facts]
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.RefStages.lean ====
/-
  The reference program's run, its results read stage by stage.

  The reference is a straight line of 92 host operations, so every weakly fair execution ends with each buffer at the
  fold of the operations over the launch contents.  Written out as one term of the arguments that fold is a tree in
  which shared intermediate values are repeated many times over (the visited points feed three operations, each of
  whose results feeds three more, …).  It is read here in four stretches instead, cut where few values are live — after
  the window positions and the validity mask; after the clipping; after the gather of the visited points; the rest —
  each stretch folded over ARBITRARY earlier contents `W`, of which only the few live values are assumed.  Chained,
  the stretches give the two results as the stages `val_main_v51`, `val_main_v40` of the generated reading (RefRead.lean)
  of the arguments' launch contents, and the arguments unchanged.
-/
import proofs.«125563_j61649960566862_1_alg».proof.Proof.RefRead
import proofs.«125563_j61649960566862_1_alg».proof.Proof.LibTypedRef
import Idealize.ShloMosaic.Lib.StableHlo.Run
import Idealize.ShloMosaic.Lib.Pipeline.Frame

set_option maxRecDepth 16384

noncomputable section

namespace Cert.Scores.Ref

open Cert.ReferenceIdeal Cert.ReferenceIdeal.Gen Idealize.ShloMosaic Idealize.ShloMosaic.TcCoe Idealize.SL.Sem Idealize.ShloMosaic.StableHlo

section Stretches
variable {F : FTy → Type} [FloatOps F]

/-- The first 20 operations: window positions, validity mask, the clipping bounds. -/
abbrev opsPositions : List (HloOp τ sig (Elt F)) :=
  [ unary main_arg2 main_v0 (broadcastInDim S1024x1 ![0] bcast_S1024_S1024x1_0 : (⟨S1024, .i32⟩ : BufTy).Contents (Elt F) → (⟨S1024x1, .i32⟩ : BufTy).Contents (Elt F)),
    nullary main_c (constantI S_ 32 10#32),
    unary main_c main_v1 (broadcastInDim S1024x1 ![] bcast_S_S1024x1 : (⟨S_, .i32⟩ : BufTy).Contents (Elt F) → (⟨S1024x1, .i32⟩ : BufTy).Contents (Elt F)),
    binary main_v0 main_v1 main_v2 (subi : (⟨S1024x1, .i32⟩ : BufTy).Contents (Elt F) → (⟨S1024x1, .i32⟩ : BufTy).Contents (Elt F) → (⟨S1024x1, .i32⟩ : BufTy).Contents (Elt F)),
    nullary main_v3 (iotaInDim S10 32 0),
    unary main_v3 main_v4 (broadcastInDim S1x10 ![1] bcast_S10_S1x10_1 : (⟨S10, .i32⟩ : BufTy).Contents (Elt F) → (⟨S1x10, .i32⟩ : BufTy).Contents (Elt F)),
    unary main_v2 main_v5 (broadcastInDim S1024x10 ![0, 1] bcast_S1024x1_S1024x10_0_1 : (⟨S1024x1, .i32⟩ : BufTy).Contents (Elt F) → (⟨S1024x10, .i32⟩ : BufTy).Contents (Elt F)),
    unary main_v4 main_v6 (broadcastInDim S1024x10 ![0, 1] bcast_S1x10_S1024x10_0_1 : (⟨S1x10, .i32⟩ : BufTy).Contents (Elt F) → (⟨S1024x10, .i32⟩ : BufTy).Contents (Elt F)),
    binary main_v5 main_v6 main_v7 (addi : (⟨S1024x10, .i32⟩ : BufTy).Contents (Elt F) → (⟨S1024x10, .i32⟩ : BufTy).Contents (Elt F) → (⟨S1024x10, .i32⟩ : BufTy).Contents (Elt F)),
    nullary main_c_0 (constantI S_ 32 0#32),
    unary main_c_0 main_v8 (broadcastInDim S1024x10 ![] bcast_S_S1024x10 : (⟨S_, .i32⟩ : BufTy).Contents (Elt F) → (⟨S1024x10, .i32⟩ : BufTy).Contents (Elt F)),
    binary main_v7 main_v8 main_v9 (cmpi .sge : (⟨S1024x10, .i32⟩ : BufTy).Contents (Elt F) → (⟨S1024x10, .i32⟩ : BufTy).Contents (Elt F) → (⟨S1024x10, .i1⟩ : BufTy).Contents (Elt F)),
    unary main_arg2 main_v10 (broadcastInDim S1024x1 ![0] bcast_S1024_S1024x1_0 : (⟨S1024, .i32⟩ : BufTy).Contents (Elt F) → (⟨S1024x1, .i32⟩ : BufTy).Contents (Elt F)),
    nullary main_c_1 (constantI S_ 32 0#32),
    unary main_c_1 main_v11 (broadcastInDim S1024x1 ![] bcast_S_S1024x1 : (⟨S_, .i32⟩ : BufTy).Contents (Elt F) → (⟨S1024x1, .i32⟩ : BufTy).Contents (Elt F)),
    binary main_v10 main_v11 main_v12 (cmpi .sgt : (⟨S1024x1, .i32⟩ : BufTy).Contents (Elt F) → (⟨S1024x1, .i32⟩ : BufTy).Contents (Elt F) → (⟨S1024x1, .i1⟩ : BufTy).Contents (Elt F)),
    unary main_v12 main_v13 (broadcastInDim S1024x10 ![0, 1] bcast_S1024x1_S1024x10_0_1 : (⟨S1024x1, .i1⟩ : BufTy).Contents (Elt F) → (⟨S1024x10, .i1⟩ : BufTy).Contents (Elt F)),
    binary main_v9 main_v13 main_v14 (andi : (⟨S1024x10, .i1⟩ : BufTy).Contents (Elt F) → (⟨S1024x10, .i1⟩ : BufTy).Contents (Elt F) → (⟨S1024x10, .i1⟩ : BufTy).Contents (Elt F)),
    nullary main_c_2 (constantI S_ 32 0#32),
    nullary main_c_3 (constantI S_ 32 199#32) ]

/-- The 6 operations of the clipping of the positions into the sequence. -/
abbrev opsClip : List (HloOp τ sig (Elt F)) :=
  [ TRef.unary (TRef.of (T := ⟨S_, .i32⟩) main_c_2) (TRef.of (T := ⟨S_, .i32⟩) main_call0_v0) id,
    TRef.unary (TRef.of (T := ⟨S_, .i32⟩) main_call0_v0) (TRef.of (T := ⟨S1024x10, .i32⟩) main_call0_v1) (broadcastInDim S1024x10 ![] bcast_S_S1024x10),
    TRef.binary (TRef.of (T := ⟨S1024x10, .i32⟩) main_call0_v1) (TRef.of (T := ⟨S1024x10, .i32⟩) main_v7) (TRef.of (T := ⟨S1024x10, .i32⟩) main_call0_v2) maxsi,
    TRef.unary (TRef.of (T := ⟨S_, .i32⟩) main_c_3) (TRef.of (T := ⟨S_, .i32⟩) main_call0_v3) id,
    TRef.unary (TRef.of (T := ⟨S_, .i32⟩) main_call0_v3) (TRef.of (T := ⟨S1024x10, .i32⟩) main_call0_v4) (broadcastInDim S1024x10 ![] bcast_S_S1024x10),
    TRef.binary (TRef.of (T := ⟨S1024x10, .i32⟩) main_call0_v4) (TRef.of (T := ⟨S1024x10, .i32⟩) main_call0_v2) (TRef.of (T := ⟨S1024x10, .i32⟩) main_v15) minsi ]

/-- The 22 operations that take the visited points along each user's sequence. -/
abbrev opsVisits : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S1024x10, .i32⟩) main_call1_v0) (broadcastInDim S1024x10 ![] bcast_S_S1024x10),
    TRef.binary (TRef.of (T := ⟨S1024x10, .i32⟩) main_v15) (TRef.of (T := ⟨S1024x10, .i32⟩) main_call1_v0) (TRef.of (T := ⟨S1024x10, .i1⟩) main_call1_v1) (cmpi .slt),
    TRef.nullary (TRef.of (T := ⟨S_, .i32⟩) main_call1_c_0) (constantI S_ 32 200#32),
    TRef.unary (TRef.of (T := ⟨S_, .i32⟩) main_call1_c_0) (TRef.of (T := ⟨S1024x10, .i32⟩) main_call1_v2) (broadcastInDim S1024x10 ![] bcast_S_S1024x10),
    TRef.binary (TRef.of (T := ⟨S1024x10, .i32⟩) main_v15) (TRef.of (T := ⟨S1024x10, .i32⟩) main_call1_v2) (TRef.of (T := ⟨S1024x10, .i32⟩) main_call1_v3) addi,
    TRef.ternary (TRef.of (T := ⟨S1024x10, .i1⟩) main_call1_v1) (TRef.of (T := ⟨S1024x10, .i32⟩) main_call1_v3) (TRef.of (T := ⟨S1024x10, .i32⟩) main_v15) (TRef.of (T := ⟨S1024x10, .i32⟩) main_call1_v4) select,
    TRef.reshape (TRef.of (T := ⟨S1024x10, .i32⟩) main_call1_v4) (TRef.of (T := ⟨S1024x10x1, .i32⟩) main_call1_v5) rfl shapeCasts_S1024x10_S1024x10x1,
    TRef.nullary (TRef.of (T := ⟨S1, .i32⟩) main_call1_c_1) (constantI S1 32 199#32),
    TRef.nullary (TRef.of (T := ⟨S_, .i32⟩) main_call1_c_2) (constantI S_ 32 0#32),
    TRef.unary (TRef.of (T := ⟨S_, .i32⟩) main_call1_c_2) (TRef.of (T := ⟨S1024x10x1, .i32⟩) main_call1_v6) (broadcastInDim S1024x10x1 ![] bcast_S_S1024x10x1),
    TRef.binary (TRef.of (T := ⟨S1024x10x1, .i32⟩) main_call1_v5) (TRef.of (T := ⟨S1024x10x1, .i32⟩) main_call1_v6) (TRef.of (T := ⟨S1024x10x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S1024x10x1, .i32⟩) main_call1_v9) (broadcastInDim S1024x10x1 ![0, 1, 2] bcast_S1x1x1_S1024x10x1_0_1_2),
    TRef.binary (TRef.of (T := ⟨S1024x10x1, .i32⟩) main_call1_v5) (TRef.of (T := ⟨S1024x10x1, .i32⟩) main_call1_v9) (TRef.of (T := ⟨S1024x10x1, .i1⟩) main_call1_v10) (cmpi .sle),
    TRef.binary (TRef.of (T := ⟨S1024x10x1, .i1⟩) main_call1_v7) (TRef.of (T := ⟨S1024x10x1, .i1⟩) main_call1_v10) (TRef.of (T := ⟨S1024x10x1, .i1⟩) main_call1_v11) andi,
    TRef.nullary (TRef.of (T := ⟨S_, .i1⟩) main_call1_c_3) (constantI S_ 1 1#1),
    TRef.binary (TRef.of (T := ⟨S1024x10x1, .i1⟩) main_call1_v11) (TRef.of (T := ⟨S_, .i1⟩) main_call1_c_3) (TRef.of (T := ⟨S1024x10, .i1⟩) main_call1_v12) (fun x v => Host.reduce IntOp.andi x v reducesTo_S1024x10x1_S1024x10_d2 h_S_),
    TRef.binary (TRef.of (T := ⟨S1024x200, .i32⟩) main_arg1) (TRef.of (T := ⟨S1024x10x1, .i32⟩) main_call1_v5) (TRef.of (T := ⟨S1024x10, .i32⟩) main_call1_v13) (fun x i => Host.gather gather_S1024x200_S1024x10x1_S1024x10_n_1_0_0_1_2_11 x i),
    TRef.nullary (TRef.of (T := ⟨S_, .i32⟩) main_call1_c_4) (constantI S_ 32 2147483648#32),
    TRef.unary (TRef.of (T := ⟨S_, .i32⟩) main_call1_c_4) (TRef.of (T := ⟨S1024x10, .i32⟩) main_call1_v14) (broadcastInDim S1024x10 ![] bcast_S_S1024x10),
    TRef.ternary (TRef.of (T := ⟨S1024x10, .i1⟩) main_call1_v12) (TRef.of (T := ⟨S1024x10, .i32⟩) main_call1_v13) (TRef.of (T := ⟨S1024x10, .i32⟩) main_call1_v14) (TRef.of (T := ⟨S1024x10, .i32⟩) main_v16) select ]

/-- The last 44 operations: regions, embeddings, the masked mean, the region rows, the product, the scale, the sum. -/
abbrev opsScores : List (HloOp τ sig (Elt F)) :=
  [ nullary main_c_4 (constantI S_ 32 0#32),
    unary main_c_4 main_v17 (broadcastInDim S1024x10 ![] bcast_S_S1024x10 : (⟨S_, .i32⟩ : BufTy).Contents (Elt F) → (⟨S1024x10, .i32⟩ : BufTy).Contents (Elt F)),
    binary main_v16 main_v17 main_v18 (cmpi .slt : (⟨S1024x10, .i32⟩ : BufTy).Contents (Elt F) → (⟨S1024x10, .i32⟩ : BufTy).Contents (Elt F) → (⟨S1024x10, .i1⟩ : BufTy).Contents (Elt F)),
    nullary main_c_5 (constantI S_ 32 100000#32),
    unary main_c_5 main_v19 (broadcastInDim S1024x10 ![] bcast_S_S1024x10 : (⟨S_, .i32⟩ : BufTy).Contents (Elt F) → (⟨S1024x10, .i32⟩ : BufTy).Contents (Elt F)),
    binary main_v16 main_v19 main_v20 (addi : (⟨S1024x10, .i32⟩ : BufTy).Contents (Elt F) → (⟨S1024x10, .i32⟩ : BufTy).Contents (Elt F) → (⟨S1024x10, .i32⟩ : BufTy).Contents (Elt F)),
    ternary main_v18 main_v20 main_v16 main_v21 (select : (⟨S1024x10, .i1⟩ : BufTy).Contents (Elt F) → (⟨S1024x10, .i32⟩ : BufTy).Contents (Elt F) → (⟨S1024x10, .i32⟩ : BufTy).Contents (Elt F) → (⟨S1024x10, .i32⟩ : BufTy).Contents (Elt F)),
    unary main_v21 main_v22 (broadcastInDim S1024x10x1 ![0, 1] bcast_S1024x10_S1024x10x1_0_1 : (⟨S1024x10, .i32⟩ : BufTy).Contents (Elt F) → (⟨S1024x10x1, .i32⟩ : BufTy).Contents (Elt F)),
    binary main_arg3 main_v22 main_v23 ((fun x i => Host.gather gather_S100000_S1024x10x1_S1024x10_n_0_n_n_0_2_1 x i) : (⟨S100000, .i32⟩ : BufTy).Contents (Elt F) → (⟨S1024x10x1, .i32⟩ : BufTy).Contents (Elt F) → (⟨S1024x10, .i32⟩ : BufTy).Contents (Elt F)),
    nullary main_c_6 (constantI S_ 32 0#32),
    unary main_c_6 main_v24 (broadcastInDim S1024x10 ![] bcast_S_S1024x10 : (⟨S_, .i32⟩ : BufTy).Contents (Elt F) → (⟨S1024x10, .i32⟩ : BufTy).Contents (Elt F)),
    binary main_v23 main_v24 main_v25 (cmpi .slt : (⟨S1024x10, .i32⟩ : BufTy).Contents (Elt F) → (⟨S1024x10, .i32⟩ : BufTy).Contents (Elt F) → (⟨S1024x10, .i1⟩ : BufTy).Contents (Elt F)),
    nullary main_c_7 (constantI S_ 32 1000#32),
    unary main_c_7 main_v26 (broadcastInDim S1024x10 ![] bcast_S_S1024x10 : (⟨S_, .i32⟩ : BufTy).Contents (Elt F) → (⟨S1024x10, .i32⟩ : BufTy).Contents (Elt F)),
    binary main_v23 main_v26 main_v27 (addi : (⟨S1024x10, .i32⟩ : BufTy).Contents (Elt F) → (⟨S1024x10, .i32⟩ : BufTy).Contents (Elt F) → (⟨S1024x10, .i32⟩ : BufTy).Contents (Elt F)),
    ternary main_v25 main_v27 main_v23 main_v28 (select : (⟨S1024x10, .i1⟩ : BufTy).Contents (Elt F) → (⟨S1024x10, .i32⟩ : BufTy).Contents (Elt F) → (⟨S1024x10, .i32⟩ : BufTy).Contents (Elt F) → (⟨S1024x10, .i32⟩ : BufTy).Contents (Elt F)),
    unary main_v28 main_v29 (broadcastInDim S1024x10x1 ![0, 1] bcast_S1024x10_S1024x10x1_0_1 : (⟨S1024x10, .i32⟩ : BufTy).Contents (Elt F) → (⟨S1024x10x1, .i32⟩ : BufTy).Contents (Elt F)),
    binary main_arg4 main_v29 main_v30 ((fun x i => Host.gather gather_S1000x256_S1024x10x1_S1024x10x256_2_0_n_n_0_2_1256 x i) : (⟨S1000x256, .f32⟩ : BufTy).Contents (Elt F) → (⟨S1024x10x1, .i32⟩ : BufTy).Contents (Elt F) → (⟨S1024x10x256, .f32⟩ : BufTy).Contents (Elt F)),
    unary main_v14 main_v31 (broadcastInDim S1024x10x1 ![0, 1] bcast_S1024x10_S1024x10x1_0_1 : (⟨S1024x10, .i1⟩ : BufTy).Contents (Elt F) → (⟨S1024x10x1, .i1⟩ : BufTy).Contents (Elt F)),
    unary main_v31 main_v32 (uitofp .f32 : (⟨S1024x10x1, .i1⟩ : BufTy).Contents (Elt F) → (⟨S1024x10x1, .f32⟩ : BufTy).Contents (Elt F)),
    nullary main_cst (constant S_ .f32 0x00000000#32),
    binary main_v32 main_cst main_v33 ((fun x v => Host.reduceAdd x v reducesTo_S1024x10x1_S1024x1_d1 h_S_) : (⟨S1024x10x1, .f32⟩ : BufTy).Contents (Elt F) → (⟨S_, .f32⟩ : BufTy).Contents (Elt F) → (⟨S1024x1, .f32⟩ : BufTy).Contents (Elt F)),
    nullary main_cst_8 (constant S_ .f32 0x3F800000#32),
    unary main_cst_8 main_v34 (broadcastInDim S1024x1 ![] bcast_S_S1024x1 : (⟨S_, .f32⟩ : BufTy).Contents (Elt F) → (⟨S1024x1, .f32⟩ : BufTy).Contents (Elt F)),
    binary main_v33 main_v34 main_v35 (maximumf : (⟨S1024x1, .f32⟩ : BufTy).Contents (Elt F) → (⟨S1024x1, .f32⟩ : BufTy).Contents (Elt F) → (⟨S1024x1, .f32⟩ : BufTy).Contents (Elt F)),
    unary main_v32 main_v36 (broadcastInDim S1024x10x256 ![0, 1, 2] bcast_S1024x10x1_S1024x10x256_0_1_2 : (⟨S1024x10x1, .f32⟩ : BufTy).Contents (Elt F) → (⟨S1024x10x256, .f32⟩ : BufTy).Contents (Elt F)),
    binary main_v30 main_v36 main_v37 (mulf : (⟨S1024x10x256, .f32⟩ : BufTy).Contents (Elt F) → (⟨S1024x10x256, .f32⟩ : BufTy).Contents (Elt F) → (⟨S1024x10x256, .f32⟩ : BufTy).Contents (Elt F)),
    nullary main_cst_9 (constant S_ .f32 0x00000000#32),
    binary main_v37 main_cst_9 main_v38 ((fun x v => Host.reduceAdd x v reducesTo_S1024x10x256_S1024x256_d1 h_S_) : (⟨S1024x10x256, .f32⟩ : BufTy).Contents (Elt F) → (⟨S_, .f32⟩ : BufTy).Contents (Elt F) → (⟨S1024x256, .f32⟩ : BufTy).Contents (Elt F)),
    unary main_v35 main_v39 (broadcastInDim S1024x256 ![0, 1] bcast_S1024x1_S1024x256_0_1 : (⟨S1024x1, .f32⟩ : BufTy).Contents (Elt F) → (⟨S1024x256, .f32⟩ : BufTy).Contents (Elt F)),
    binary main_v38 main_v39 main_v40 (Host.divf : (⟨S1024x256, .f32⟩ : BufTy).Contents (Elt F) → (⟨S1024x256, .f32⟩ : BufTy).Contents (Elt F) → (⟨S1024x256, .f32⟩ : BufTy).Contents (Elt F)),
    nullary main_c_10 (constantI S_ 32 0#32),
    unary main_c_10 main_v41 (broadcastInDim S100000 ![] bcast_S_S100000 : (⟨S_, .i32⟩ : BufTy).Contents (Elt F) → (⟨S100000, .i32⟩ : BufTy).Contents (Elt F)),
    binary main_arg3 main_v41 main_v42 (cmpi .slt : (⟨S100000, .i32⟩ : BufTy).Contents (Elt F) → (⟨S100000, .i32⟩ : BufTy).Contents (Elt F) → (⟨S100000, .i1⟩ : BufTy).Contents (Elt F)),
    nullary main_c_11 (constantI S_ 32 1000#32),
    unary main_c_11 main_v43 (broadcastInDim S100000 ![] bcast_S_S100000 : (⟨S_, .i32⟩ : BufTy).Contents (Elt F) → (⟨S100000, .i32⟩ : BufTy).Contents (Elt F)),
    binary main_arg3 main_v43 main_v44 (addi : (⟨S100000, .i32⟩ : BufTy).Contents (Elt F) → (⟨S100000, .i32⟩ : BufTy).Contents (Elt F) → (⟨S100000, .i32⟩ : BufTy).Contents (Elt F)),
    ternary main_v42 main_v44 main_arg3 main_v45 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v45 main_v46 (broadcastInDim S100000x1 ![0] bcast_S100000_S100000x1_0 : (⟨S100000, .i32⟩ : BufTy).Contents (Elt F) → (⟨S100000x1, .i32⟩ : BufTy).Contents (Elt F)),
    binary main_arg4 main_v46 main_v47 ((fun x i => Host.gather gather_S1000x256_S100000x1_S100000x256_1_0_n_n_0_1_1256 x i) : (⟨S1000x256, .f32⟩ : BufTy).Contents (Elt F) → (⟨S100000x1, .i32⟩ : BufTy).Contents (Elt F) → (⟨S100000x256, .f32⟩ : BufTy).Contents (Elt F)),
    binary main_v40 main_v47 main_v48 ((fun l r => Host.dotGeneral dot_S1024x256_S100000x256_S1024x100000_1_1_0_0_n_n none l r) : (⟨S1024x256, .f32⟩ : BufTy).Contents (Elt F) → (⟨S100000x256, .f32⟩ : BufTy).Contents (Elt F) → (⟨S1024x100000, .f32⟩ : BufTy).Contents (Elt F)),
    unary main_arg5 main_v49 (broadcastInDim S1024x100000 ![] bcast_S_S1024x100000 : (⟨S_, .f32⟩ : BufTy).Contents (Elt F) → (⟨S1024x100000, .f32⟩ : BufTy).Contents (Elt F)),
    binary main_v49 main_v48 main_v50 (mulf : (⟨S1024x100000, .f32⟩ : BufTy).Contents (Elt F) → (⟨S1024x100000, .f32⟩ : BufTy).Contents (Elt F) → (⟨S1024x100000, .f32⟩ : BufTy).Contents (Elt F)),
    binary main_arg0 main_v50 main_v51 (addf : (⟨S1024x100000, .f32⟩ : BufTy).Contents (Elt F) → (⟨S1024x100000, .f32⟩ : BufTy).Contents (Elt F) → (⟨S1024x100000, .f32⟩ : BufTy).Contents (Elt F)) ]

/-- The gather stretch, first piece (8 operations): the start indices. -/
abbrev opsWrap : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S1024x10, .i32⟩) main_call1_v0) (broadcastInDim S1024x10 ![] bcast_S_S1024x10),
    TRef.binary (TRef.of (T := ⟨S1024x10, .i32⟩) main_v15) (TRef.of (T := ⟨S1024x10, .i32⟩) main_call1_v0) (TRef.of (T := ⟨S1024x10, .i1⟩) main_call1_v1) (cmpi .slt),
    TRef.nullary (TRef.of (T := ⟨S_, .i32⟩) main_call1_c_0) (constantI S_ 32 200#32),
    TRef.unary (TRef.of (T := ⟨S_, .i32⟩) main_call1_c_0) (TRef.of (T := ⟨S1024x10, .i32⟩) main_call1_v2) (broadcastInDim S1024x10 ![] bcast_S_S1024x10),
    TRef.binary (TRef.of (T := ⟨S1024x10, .i32⟩) main_v15) (TRef.of (T := ⟨S1024x10, .i32⟩) main_call1_v2) (TRef.of (T := ⟨S1024x10, .i32⟩) main_call1_v3) addi,
    TRef.ternary (TRef.of (T := ⟨S1024x10, .i1⟩) main_call1_v1) (TRef.of (T := ⟨S1024x10, .i32⟩) main_call1_v3) (TRef.of (T := ⟨S1024x10, .i32⟩) main_v15) (TRef.of (T := ⟨S1024x10, .i32⟩) main_call1_v4) select,
    TRef.reshape (TRef.of (T := ⟨S1024x10, .i32⟩) main_call1_v4) (TRef.of (T := ⟨S1024x10x1, .i32⟩) main_call1_v5) rfl shapeCasts_S1024x10_S1024x10x1 ]

/-- The gather stretch, second piece (10 operations): the in-bounds mask. -/
abbrev opsInbounds : List (HloOp τ sig (Elt F)) :=
  [ TRef.nullary (TRef.of (T := ⟨S1, .i32⟩) main_call1_c_1) (constantI S1 32 199#32),
    TRef.nullary (TRef.of (T := ⟨S_, .i32⟩) main_call1_c_2) (constantI S_ 32 0#32),
    TRef.unary (TRef.of (T := ⟨S_, .i32⟩) main_call1_c_2) (TRef.of (T := ⟨S1024x10x1, .i32⟩) main_call1_v6) (broadcastInDim S1024x10x1 ![] bcast_S_S1024x10x1),
    TRef.binary (TRef.of (T := ⟨S1024x10x1, .i32⟩) main_call1_v5) (TRef.of (T := ⟨S1024x10x1, .i32⟩) main_call1_v6) (TRef.of (T := ⟨S1024x10x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S1024x10x1, .i32⟩) main_call1_v9) (broadcastInDim S1024x10x1 ![0, 1, 2] bcast_S1x1x1_S1024x10x1_0_1_2),
    TRef.binary (TRef.of (T := ⟨S1024x10x1, .i32⟩) main_call1_v5) (TRef.of (T := ⟨S1024x10x1, .i32⟩) main_call1_v9) (TRef.of (T := ⟨S1024x10x1, .i1⟩) main_call1_v10) (cmpi .sle),
    TRef.binary (TRef.of (T := ⟨S1024x10x1, .i1⟩) main_call1_v7) (TRef.of (T := ⟨S1024x10x1, .i1⟩) main_call1_v10) (TRef.of (T := ⟨S1024x10x1, .i1⟩) main_call1_v11) andi,
    TRef.nullary (TRef.of (T := ⟨S_, .i1⟩) main_call1_c_3) (constantI S_ 1 1#1),
    TRef.binary (TRef.of (T := ⟨S1024x10x1, .i1⟩) main_call1_v11) (TRef.of (T := ⟨S_, .i1⟩) main_call1_c_3) (TRef.of (T := ⟨S1024x10, .i1⟩) main_call1_v12) (fun x v => Host.reduce IntOp.andi x v reducesTo_S1024x10x1_S1024x10_d2 h_S_) ]

/-- The gather stretch, third piece (4 operations): the gather and the fill. -/
abbrev opsSelect : List (HloOp τ sig (Elt F)) :=
  [ TRef.binary (TRef.of (T := ⟨S1024x200, .i32⟩) main_arg1) (TRef.of (T := ⟨S1024x10x1, .i32⟩) main_call1_v5) (TRef.of (T := ⟨S1024x10, .i32⟩) main_call1_v13) (fun x i => Host.gather gather_S1024x200_S1024x10x1_S1024x10_n_1_0_0_1_2_11 x i),
    TRef.nullary (TRef.of (T := ⟨S_, .i32⟩) main_call1_c_4) (constantI S_ 32 2147483648#32),
    TRef.unary (TRef.of (T := ⟨S_, .i32⟩) main_call1_c_4) (TRef.of (T := ⟨S1024x10, .i32⟩) main_call1_v14) (broadcastInDim S1024x10 ![] bcast_S_S1024x10),
    TRef.ternary (TRef.of (T := ⟨S1024x10, .i1⟩) main_call1_v12) (TRef.of (T := ⟨S1024x10, .i32⟩) main_call1_v13) (TRef.of (T := ⟨S1024x10, .i32⟩) main_call1_v14) (TRef.of (T := ⟨S1024x10, .i32⟩) main_v16) select ]

end Stretches

/-- The program's operations are the four stretches in order. -/
theorem ops_split : (Cert.ReferenceIdeal.Value.ops (F := Ideal)) = opsPositions ++ (opsClip ++ (opsVisits ++ opsScores)) := rfl

/-! ## What each stretch leaves alone -/

set_option maxHeartbeats 2000000 in
/-- The first stretch writes no argument. -/
theorem kept_positions (W : Valuation τ sig (Elt Ideal)) :
    StableHlo.after opsPositions W (Proc.devRef .tc main_arg0) = W (Proc.devRef .tc main_arg0)
    ∧ StableHlo.after opsPositions W (Proc.devRef .tc main_arg1) = W (Proc.devRef .tc main_arg1)
    ∧ StableHlo.after opsPositions W (Proc.devRef .tc main_arg2) = W (Proc.devRef .tc main_arg2)
    ∧ StableHlo.after opsPositions W (Proc.devRef .tc main_arg3) = W (Proc.devRef .tc main_arg3)
    ∧ StableHlo.after opsPositions W (Proc.devRef .tc main_arg4) = W (Proc.devRef .tc main_arg4)
    ∧ StableHlo.after opsPositions W (Proc.devRef .tc main_arg5) = W (Proc.devRef .tc main_arg5) := by
  simp only [opsPositions]
  refine ⟨?_, ?_, ?_, ?_, ?_, ?_⟩ <;> after_results_simp

set_option maxHeartbeats 2000000 in
/-- The clipping writes neither the validity mask nor an argument. -/
theorem kept_clip (W : Valuation τ sig (Elt Ideal)) :
    StableHlo.after opsClip W (Proc.devRef .tc main_v14) = W (Proc.devRef .tc main_v14)
    ∧ StableHlo.after opsClip W (Proc.devRef .tc main_arg0) = W (Proc.devRef .tc main_arg0)
    ∧ StableHlo.after opsClip W (Proc.devRef .tc main_arg1) = W (Proc.devRef .tc main_arg1)
    ∧ StableHlo.after opsClip W (Proc.devRef .tc main_arg2) = W (Proc.devRef .tc main_arg2)
    ∧ StableHlo.after opsClip W (Proc.devRef .tc main_arg3) = W (Proc.devRef .tc main_arg3)
    ∧ StableHlo.after opsClip W (Proc.devRef .tc main_arg4) = W (Proc.devRef .tc main_arg4)
    ∧ StableHlo.after opsClip W (Proc.devRef .tc main_arg5) = W (Proc.devRef .tc main_arg5) := by
  simp only [opsClip]
  refine ⟨?_, ?_, ?_, ?_, ?_, ?_, ?_⟩ <;> after_results_simp

set_option maxHeartbeats 2000000 in
/-- The gather of the visited points writes neither the validity mask nor an argument. -/
theorem kept_visits (W : Valuation τ sig (Elt Ideal)) :
    StableHlo.after opsVisits W (Proc.devRef .tc main_v14) = W (Proc.devRef .tc main_v14)
    ∧ StableHlo.after opsVisits W (Proc.devRef .tc main_arg0) = W (Proc.devRef .tc main_arg0)
    ∧ StableHlo.after opsVisits W (Proc.devRef .tc main_arg1) = W (Proc.devRef .tc main_arg1)
    ∧ StableHlo.after opsVisits W (Proc.devRef .tc main_arg2) = W (Proc.devRef .tc main_arg2)
    ∧ StableHlo.after opsVisits W (Proc.devRef .tc main_arg3) = W (Proc.devRef .tc main_arg3)
    ∧ StableHlo.after opsVisits W (Proc.devRef .tc main_arg4) = W (Proc.devRef .tc main_arg4)
    ∧ StableHlo.after opsVisits W (Proc.devRef .tc main_arg5) = W (Proc.devRef .tc main_arg5) := by
  simp only [opsVisits]
  refine ⟨?_, ?_, ?_, ?_, ?_, ?_, ?_⟩ <;> after_results_simp

set_option maxHeartbeats 2000000 in
/-- The last stretch writes no argument. -/
theorem kept_scores (W : Valuation τ sig (Elt Ideal)) :
    StableHlo.after opsScores W (Proc.devRef .tc main_arg0) = W (Proc.devRef .tc main_arg0)
    ∧ StableHlo.after opsScores W (Proc.devRef .tc main_arg1) = W (Proc.devRef .tc main_arg1)
    ∧ StableHlo.after opsScores W (Proc.devRef .tc main_arg2) = W (Proc.devRef .tc main_arg2)
    ∧ StableHlo.after opsScores W (Proc.devRef .tc main_arg3) = W (Proc.devRef .tc main_arg3)
    ∧ StableHlo.after opsScores W (Proc.devRef .tc main_arg4) = W (Proc.devRef .tc main_arg4)
    ∧ StableHlo.after opsScores W (Proc.devRef .tc main_arg5) = W (Proc.devRef .tc main_arg5) := by
  simp only [opsScores]
  refine ⟨?_, ?_, ?_, ?_, ?_, ?_⟩ <;> after_results_simp

/-! ## What each stretch computes -/

/-- First stretch (up to the clipping of the window positions): the unclipped positions, the validity mask and the two
    clipping bounds are the reference reading's stages of the sequence lengths. -/
theorem stage_positions (W : Valuation τ sig (Elt Ideal)) :
    StableHlo.after opsPositions W (Proc.devRef .tc main_v7) = Cert.ReferenceIdeal.Read.val_main_v7 (F := Ideal) (W (Proc.devRef .tc main_arg2))
    ∧ StableHlo.after opsPositions W (Proc.devRef .tc main_v14) = Cert.ReferenceIdeal.Read.val_main_v14 (F := Ideal) (W (Proc.devRef .tc main_arg2))
    ∧ StableHlo.after opsPositions W (Proc.devRef .tc main_c_2) = Cert.ReferenceIdeal.Read.val_main_c_2 (F := Ideal)
    ∧ StableHlo.after opsPositions W (Proc.devRef .tc main_c_3) = Cert.ReferenceIdeal.Read.val_main_c_3 (F := Ideal) := by
  simp only [opsPositions]
  refine ⟨?_, ?_, ?_, ?_⟩ <;> (after_results <;> rfl)

/-- Second stretch (the clipping): from the unclipped positions and the bounds, the clipped positions. -/
theorem stage_clip (W : Valuation τ sig (Elt Ideal)) (a2 : (⟨S1024, .i32⟩ : BufTy).Contents (Elt Ideal))
    (h7 : W (Proc.devRef .tc main_v7) = Cert.ReferenceIdeal.Read.val_main_v7 (F := Ideal) a2)
    (hlo : W (Proc.devRef .tc main_c_2) = Cert.ReferenceIdeal.Read.val_main_c_2 (F := Ideal))
    (hhi : W (Proc.devRef .tc main_c_3) = Cert.ReferenceIdeal.Read.val_main_c_3 (F := Ideal)) :
    StableHlo.after opsClip W (Proc.devRef .tc main_v15) = Cert.ReferenceIdeal.Read.val_main_v15 (F := Ideal) a2 := by
  simp only [opsClip]
  after_results
  rw [h7, hlo, hhi]
  rfl

/-- The gather stretch is its three pieces in order. -/
theorem visits_split : (opsVisits : List (HloOp τ sig (Elt Ideal))) = opsWrap ++ (opsInbounds ++ opsSelect) := rfl

set_option maxHeartbeats 1000000 in
/-- First piece: the clipped positions, negative ones wrapped by the sequence length, as a column of start indices. -/
theorem stage_wrap (W : Valuation τ sig (Elt Ideal)) (a2 : (⟨S1024, .i32⟩ : BufTy).Contents (Elt Ideal))
    (h15 : W (Proc.devRef .tc main_v15) = Cert.ReferenceIdeal.Read.val_main_v15 (F := Ideal) a2) :
    StableHlo.after opsWrap W (Proc.devRef .tc main_call1_v5) = Cert.ReferenceIdeal.Read.val_main_call1_v5 (F := Ideal) a2 := by
  simp only [opsWrap]
  after_results
  rw [h15]
  rfl

set_option maxHeartbeats 1000000 in
/-- The first piece does not write the visit sequences. -/
theorem kept_wrap (W : Valuation τ sig (Elt Ideal)) :
    StableHlo.after opsWrap W (Proc.devRef .tc main_arg1) = W (Proc.devRef .tc main_arg1) := by
  simp only [opsWrap]
  after_results_simp

set_option maxHeartbeats 1000000 in
/-- Second piece: which start indices lie inside the sequence. -/
theorem stage_inbounds (W : Valuation τ sig (Elt Ideal)) (a2 : (⟨S1024, .i32⟩ : BufTy).Contents (Elt Ideal))
    (h5 : W (Proc.devRef .tc main_call1_v5) = Cert.ReferenceIdeal.Read.val_main_call1_v5 (F := Ideal) a2) :
    StableHlo.after opsInbounds W (Proc.devRef .tc main_call1_v12) = Cert.ReferenceIdeal.Read.val_main_call1_v12 (F := Ideal) a2 := by
  have h5' : W (Proc.devRef .tc main_call1_v5)
      = (TRef.of (T := ⟨S1024x10x1, .i32⟩) main_call1_v5).toBuf (Cert.ReferenceIdeal.Read.val_main_call1_v5 (F := Ideal) a2) := h5.trans rfl
  simp only [opsInbounds]
  after_results
  rw [h5']
  simp only [TRef.ofBuf_toBuf]
  refine (congrArg (TRef.toBuf (TRef.of (T := ⟨S1024x10, .i1⟩) main_call1_v12))
    (?_ : _ = Cert.ReferenceIdeal.Read.val_main_call1_v12 (F := Ideal) a2)).trans rfl
  rfl

set_option maxHeartbeats 1000000 in
/-- The second piece writes neither the start indices nor the visit sequences. -/
theorem kept_inbounds (W : Valuation τ sig (Elt Ideal)) :
    StableHlo.after opsInbounds W (Proc.devRef .tc main_call1_v5) = W (Proc.devRef .tc main_call1_v5)
    ∧ StableHlo.after opsInbounds W (Proc.devRef .tc main_arg1) = W (Proc.devRef .tc main_arg1) := by
  simp only [opsInbounds]
  refine ⟨?_, ?_⟩ <;> after_results_simp

set_option maxHeartbeats 1000000 in
/-- Third piece: the gather along each user's sequence, and the fill value where the start index is outside. -/
theorem stage_select (W : Valuation τ sig (Elt Ideal)) (a1 : (⟨S1024x200, .i32⟩ : BufTy).Contents (Elt Ideal))
    (a2 : (⟨S1024, .i32⟩ : BufTy).Contents (Elt Ideal))
    (h12 : W (Proc.devRef .tc main_call1_v12) = Cert.ReferenceIdeal.Read.val_main_call1_v12 (F := Ideal) a2)
    (h5 : W (Proc.devRef .tc main_call1_v5) = Cert.ReferenceIdeal.Read.val_main_call1_v5 (F := Ideal) a2) (h1 : W (Proc.devRef .tc main_arg1) = a1) :
    StableHlo.after opsSelect W (Proc.devRef .tc main_v16) = Cert.ReferenceIdeal.Read.val_main_v16 (F := Ideal) a1 a2 := by
  have h12' : W (Proc.devRef .tc main_call1_v12)
      = (TRef.of (T := ⟨S1024x10, .i1⟩) main_call1_v12).toBuf (Cert.ReferenceIdeal.Read.val_main_call1_v12 (F := Ideal) a2) := h12.trans rfl
  have h5' : W (Proc.devRef .tc main_call1_v5)
      = (TRef.of (T := ⟨S1024x10x1, .i32⟩) main_call1_v5).toBuf (Cert.ReferenceIdeal.Read.val_main_call1_v5 (F := Ideal) a2) := h5.trans rfl
  have h1' : W (Proc.devRef .tc main_arg1) = (TRef.of (T := ⟨S1024x200, .i32⟩) main_arg1).toBuf a1 := h1.trans rfl
  simp only [opsSelect]
  after_results
  rw [h12', h5', h1']
  simp only [TRef.ofBuf_toBuf]
  refine (congrArg (TRef.toBuf (TRef.of (T := ⟨S1024x10, .i32⟩) main_v16))
    (?_ : _ = Cert.ReferenceIdeal.Read.val_main_v16 (F := Ideal) a1 a2)).trans rfl
  rfl

/-- Third stretch (the gather of the visited points along each user's sequence): from the visit sequences and the
    clipped positions, the visited points — its three pieces chained. -/
theorem stage_visits (W : Valuation τ sig (Elt Ideal)) (a1 : (⟨S1024x200, .i32⟩ : BufTy).Contents (Elt Ideal))
    (a2 : (⟨S1024, .i32⟩ : BufTy).Contents (Elt Ideal))
    (h15 : W (Proc.devRef .tc main_v15) = Cert.ReferenceIdeal.Read.val_main_v15 (F := Ideal) a2) (h1 : W (Proc.devRef .tc main_arg1) = a1) :
    StableHlo.after opsVisits W (Proc.devRef .tc main_v16) = Cert.ReferenceIdeal.Read.val_main_v16 (F := Ideal) a1 a2 := by
  rw [visits_split]
  simp only [StableHlo.after_append]
  have s5 := stage_wrap W a2 h15
  obtain ⟨j5, j1⟩ := kept_inbounds (StableHlo.after opsWrap W)
  have s12 := stage_inbounds (StableHlo.after opsWrap W) a2 s5
  exact stage_select (StableHlo.after opsInbounds (StableHlo.after opsWrap W)) a1 a2 s12 (j5.trans s5) ((j1.trans (kept_wrap W)).trans h1)

set_option maxHeartbeats 4000000 in
/-- Last stretch: from the visited points, the validity mask and the arguments, the two results. -/
theorem stage_scores (W : Valuation τ sig (Elt Ideal)) (a0 : (⟨S1024x100000, .f32⟩ : BufTy).Contents (Elt Ideal)) (a1 : (⟨S1024x200, .i32⟩ : BufTy).Contents (Elt Ideal)) (a2 : (⟨S1024, .i32⟩ : BufTy).Contents (Elt Ideal)) (a3 : (⟨S100000, .i32⟩ : BufTy).Contents (Elt Ideal)) (a4 : (⟨S1000x256, .f32⟩ : BufTy).Contents (Elt Ideal)) (a5 : (⟨S_, .f32⟩ : BufTy).Contents (Elt Ideal))
    (h16 : W (Proc.devRef .tc main_v16) = Cert.ReferenceIdeal.Read.val_main_v16 (F := Ideal) a1 a2)
    (h14 : W (Proc.devRef .tc main_v14) = Cert.ReferenceIdeal.Read.val_main_v14 (F := Ideal) a2)
    (h0 : W (Proc.devRef .tc main_arg0) = a0) (h3 : W (Proc.devRef .tc main_arg3) = a3) (h4 : W (Proc.devRef .tc main_arg4) = a4) (h5 : W (Proc.devRef .tc main_arg5) = a5) :
    StableHlo.after opsScores W (Proc.devRef .tc main_v51) = Cert.ReferenceIdeal.Read.val_main_v51 (F := Ideal) a0 a1 a2 a3 a4 a5
    ∧ StableHlo.after opsScores W (Proc.devRef .tc main_v40) = Cert.ReferenceIdeal.Read.val_main_v40 (F := Ideal) a1 a2 a3 a4 := by
  simp only [opsScores]
  after_results_simp
  rw [h16, h14, h0, h3, h4, h5]
  exact ⟨rfl, rfl⟩

/-! ## The stretches chained -/

/-- After all four stretches over contents `W`: the results are the reading's stages of `W`'s arguments. -/
theorem results_of (W : Valuation τ sig (Elt Ideal)) :
    StableHlo.after opsScores (StableHlo.after opsVisits (StableHlo.after opsClip (StableHlo.after opsPositions W))) (Proc.devRef .tc main_v51)
        = Cert.ReferenceIdeal.Read.val_main_v51 (F := Ideal) (W (Proc.devRef .tc main_arg0)) (W (Proc.devRef .tc main_arg1)) (W (Proc.devRef .tc main_arg2))
            (W (Proc.devRef .tc main_arg3)) (W (Proc.devRef .tc main_arg4)) (W (Proc.devRef .tc main_arg5))
    ∧ StableHlo.after opsScores (StableHlo.after opsVisits (StableHlo.after opsClip (StableHlo.after opsPositions W))) (Proc.devRef .tc main_v40)
        = Cert.ReferenceIdeal.Read.val_main_v40 (F := Ideal) (W (Proc.devRef .tc main_arg1)) (W (Proc.devRef .tc main_arg2)) (W (Proc.devRef .tc main_arg3)) (W (Proc.devRef .tc main_arg4)) := by
  obtain ⟨p0, p1, p2, p3, p4, p5⟩ := kept_positions W
  obtain ⟨s7, s14, slo, shi⟩ := stage_positions W
  obtain ⟨c14, c0, c1, c2, c3, c4, c5⟩ := kept_clip (StableHlo.after opsPositions W)
  have s15 := stage_clip (StableHlo.after opsPositions W) _ s7 slo shi
  obtain ⟨v14, v0, v1, v2, v3, v4, v5⟩ := kept_visits (StableHlo.after opsClip (StableHlo.after opsPositions W))
  have s16 := stage_visits (StableHlo.after opsClip (StableHlo.after opsPositions W)) _ _ s15 (c1.trans p1)
  exact stage_scores (StableHlo.after opsVisits (StableHlo.after opsClip (StableHlo.after opsPositions W))) _ _ _ _ _ _
    s16 ((v14.trans c14).trans s14) ((v0.trans c0).trans p0) ((v3.trans c3).trans p3) ((v4.trans c4).trans p4) ((v5.trans c5).trans p5)

/-- After all four stretches the arguments are as before. -/
theorem args_of (W : Valuation τ sig (Elt Ideal)) :
    StableHlo.after opsScores (StableHlo.after opsVisits (StableHlo.after opsClip (StableHlo.after opsPositions W))) (Proc.devRef .tc main_arg0) = W (Proc.devRef .tc main_arg0)
    ∧ StableHlo.after opsScores (StableHlo.after opsVisits (StableHlo.after opsClip (StableHlo.after opsPositions W))) (Proc.devRef .tc main_arg1) = W (Proc.devRef .tc main_arg1)
    ∧ StableHlo.after opsScores (StableHlo.after opsVisits (StableHlo.after opsClip (StableHlo.after opsPositions W))) (Proc.devRef .tc main_arg2) = W (Proc.devRef .tc main_arg2)
    ∧ StableHlo.after opsScores (StableHlo.after opsVisits (StableHlo.after opsClip (StableHlo.after opsPositions W))) (Proc.devRef .tc main_arg3) = W (Proc.devRef .tc main_arg3)
    ∧ StableHlo.after opsScores (StableHlo.after opsVisits (StableHlo.after opsClip (StableHlo.after opsPositions W))) (Proc.devRef .tc main_arg4) = W (Proc.devRef .tc main_arg4)
    ∧ StableHlo.after opsScores (StableHlo.after opsVisits (StableHlo.after opsClip (StableHlo.after opsPositions W))) (Proc.devRef .tc main_arg5) = W (Proc.devRef .tc main_arg5) := by
  obtain ⟨p0, p1, p2, p3, p4, p5⟩ := kept_positions W
  obtain ⟨c14, c0, c1, c2, c3, c4, c5⟩ := kept_clip (StableHlo.after opsPositions W)
  obtain ⟨v14, v0, v1, v2, v3, v4, v5⟩ := kept_visits (StableHlo.after opsClip (StableHlo.after opsPositions W))
  obtain ⟨k0, k1, k2, k3, k4, k5⟩ := kept_scores (StableHlo.after opsVisits (StableHlo.after opsClip (StableHlo.after opsPositions W)))
  exact ⟨((k0.trans v0).trans c0).trans p0, ((k1.trans v1).trans c1).trans p1, ((k2.trans v2).trans c2).trans p2,
    ((k3.trans v3).trans c3).trans p3, ((k4.trans v4).trans c4).trans p4, ((k5.trans v5).trans c5).trans p5⟩

/-! ## The run -/

/-- THE REFERENCE'S RUN: every weakly fair execution terminates, the first result at the stage `val_main_v51` and the second
    at the stage `val_main_v40` of the arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = Cert.ReferenceIdeal.Read.val_main_v51 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_v40) = Cert.ReferenceIdeal.Read.val_main_v40 (F := Ideal) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      have e : StableHlo.after (Cert.ReferenceIdeal.Value.ops (F := Ideal)) (launchContents m c)
          = StableHlo.after opsScores (StableHlo.after opsVisits (StableHlo.after opsClip (StableHlo.after opsPositions (launchContents m c)))) := by
        rw [ops_split]
        simp only [StableHlo.after_append]
      obtain ⟨r51, r40⟩ := results_of (launchContents m c)
      obtain ⟨k0, k1, k2, k3, k4, k5⟩ := args_of (launchContents m c)
      exact ⟨(h c main_v51).trans ((congrFun e _).trans r51), (h c main_v40).trans ((congrFun e _).trans r40),
        (h c main_arg0).trans ((congrFun e _).trans k0), (h c main_arg1).trans ((congrFun e _).trans k1),
        (h c main_arg2).trans ((congrFun e _).trans k2), (h c main_arg3).trans ((congrFun e _).trans k3),
        (h c main_arg4).trans ((congrFun e _).trans k4), (h c main_arg5).trans ((congrFun e _).trans k5)⟩)
    (run_seq Cert.ReferenceIdeal.Value.scopedRefs_eq Cert.ReferenceIdeal.Value.scopedSems_eq defs main
      (fun _ => Cert.ReferenceIdeal.Value.ops) Cert.ReferenceIdeal.Value.main_eq (fun _ => Cert.ReferenceIdeal.Value.ops_sub) m ρ)

end Cert.Scores.Ref

end
-- ==== Proof.LibRealLaw.lean ====
/-
  Extended reals that are real numbers, and the one law this certificate rests on.

  Both programs score a user against every point of interest by the inner product of the user's preference
  vector `u` (256 entries) with the point's region embedding `r`, scaled by `a`.  One program scales the
  preference vector first and then takes the inner product, `∑ k, (u k * a) * r k`; the other takes the inner
  product and scales the result, `a * ∑ k, u k * r k`.  On the extended reals a factor moves across a sum only
  when no term is infinite, so the law is stated for entries that are real numbers; it is then the ring identity
  `∑ k, (u k * a) * r k = a * ∑ k, u k * r k` in `ℝ`.

  The rest of the file says which operations keep an extended real a real number: products, sums over a finite
  index set, maxima, and the ideal quotient by a divisor that is at least one.
-/
import Idealize.ShloMosaic.PureOps.Ideal
import Idealize.ShloMosaic.PureOps.Ideal.Laws

noncomputable section

namespace Cert.Scores

open Idealize.ShloMosaic

/-- The extended real `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a real number and one is a real number that is not zero. -/
theorem max_one_eq (s : ℝ) : max (s : EReal) 1 = ((max s 1 : ℝ) : EReal) := by
  have h := (EReal.coe_strictMono.monotone).map_max (a := s) (b := (1 : ℝ))
  rw [h]; rfl

/-- The ideal quotient of a real number by the maximum of a real number and one is a real number: the divisor is
    a real number at least one, so it is not zero and the quotient is the product with its reciprocal. -/
theorem IsReal.div_max_one {x s : EReal} (hx : IsReal x) (hs : IsReal s) : IsReal (Ideal.div x (max s 1)) := by
  obtain ⟨s', rfl⟩ := hs
  rw [max_one_eq, Ideal.div_coe (ne_of_gt (lt_of_lt_of_le one_pos (le_max_right s' 1)))]
  exact hx.mul (isReal_coe _)

/-- THE LAW.  For real entries, scaling the first factor of every product by `a` scales the inner product by `a`. -/
theorem scaled_inner {n : Nat} (u r : Fin n → EReal) (a : EReal)
    (hu : ∀ k, IsReal (u k)) (hr : ∀ k, IsReal (r k)) (ha : IsReal a) :
    ∑ k : Fin n, (u k * a) * r k = a * ∑ k : Fin n, u k * r k := by
  choose u' hu' using hu
  choose r' hr' using hr
  obtain ⟨a', rfl⟩ := ha
  have hl : ∀ k : Fin n, (u k * (a' : EReal)) * r k = ((u' k * a' * r' k : ℝ) : EReal) := fun k => by
    rw [hu' k, hr' k, EReal.coe_mul, EReal.coe_mul]
  have hr2 : ∀ k : Fin n, u k * r k = ((u' k * r' k : ℝ) : EReal) := fun k => by
    rw [hu' k, hr' k, EReal.coe_mul]
  rw [Finset.sum_congr rfl fun k _ => hl k, Finset.sum_congr rfl fun k _ => hr2 k, ← coe_sum, ← coe_sum,
    ← EReal.coe_mul, Finset.mul_sum]
  exact congrArg _ (Finset.sum_congr rfl fun k _ => by ring)

end Cert.Scores

end
-- ==== Proof.RefSide.lean ====
/-
  The reference program, read at an index.

  Its first result, the prediction, is at row `b` (a user) and column `l` (a point of interest)
      pred_base[b, l] + alpha * ∑ k, pref[b, k] * rows[l, k],
  where `pref` (1024 × 256) is the user's preference vector — a masked mean of region embeddings, the program's
  second result — and `rows` (100000 × 256) holds, for every point of interest, the embedding of its region: a row of
  the embedding table picked by a gather.  Both are stages of the generated reading of the program; here they are
  given names, shown to have real entries when the table has, and the prediction is brought to the form in which
  the scale sits on the preference vector,
      pred_base[b, l] + ∑ k, (pref[b, k] * alpha) * rows[l, k],
  by the law of LibRealLaw.lean.  That is the form the kernel computes.
-/
import proofs.«125563_j61649960566862_1_alg».proof.Proof.RefRead
import proofs.«125563_j61649960566862_1_alg».proof.Proof.LibRealLaw
import Idealize.ShloMosaic.Lib.ValueIdx
import Idealize.ShloMosaic.PureOps.IdealRules

noncomputable section

namespace Cert.Scores.Ref

open Cert.ReferenceIdeal Cert.ReferenceIdeal.Read Idealize.ShloMosaic Idealize.ShloMosaic.ValueIdx

variable (x0 : (⟨S1024x100000, .f32⟩ : BufTy).Contents (Elt Ideal))
  (x1 : (⟨S1024x200, .i32⟩ : BufTy).Contents (Elt Ideal)) (x2 : (⟨S1024, .i32⟩ : BufTy).Contents (Elt Ideal))
  (x3 : (⟨S100000, .i32⟩ : BufTy).Contents (Elt Ideal)) (x4 : (⟨S1000x256, .f32⟩ : BufTy).Contents (Elt Ideal))
  (x5 : (⟨S_, .f32⟩ : BufTy).Contents (Elt Ideal))

/-- The users' preference vectors, 1024 × 256: the reference's second result as a function of the arguments. -/
abbrev pref : S1024x256.Idx → EReal := val_main_v40 (F := Ideal) x1 x2 x3 x4

/-- The region embedding of every point of interest, 100000 × 256. -/
abbrev rows : S100000x256.Idx → EReal := val_main_v47 (F := Ideal) x3 x4

/-- An entry of a gather is an entry of its operand: every region embedding row entry is an entry of the table. -/
theorem rows_real (h4 : ∀ j, IsReal (x4 j)) (i : S100000x256.Idx) : IsReal (rows x3 x4 i) := by
  unfold rows val_main_v47 Host.gather
  exact h4 _

/-- The mask of valid positions, converted to a float, is 0 or 1: a real number. -/
theorem mask_real (j : S1024x10x1.Idx) : IsReal (val_main_v32 (F := Ideal) x2 j) := by
  rw [val_main_v32_apply]
  exact ⟨_, rfl⟩

/-- A gathered embedding entry is an entry of the table. -/
theorem emb_real (h4 : ∀ j, IsReal (x4 j)) (j : S1024x10x256.Idx) : IsReal (val_main_v30 (F := Ideal) x1 x2 x3 x4 j) := by
  unfold val_main_v30 Host.gather
  exact h4 _

/-- A preference entry is a sum of ten real products divided by the maximum of a real count and one: a real number. -/
theorem pref_real (h4 : ∀ j, IsReal (x4 j)) (i : S1024x256.Idx) : IsReal (pref x1 x2 x3 x4 i) := by
  unfold pref
  rw [val_main_v40_apply, val_main_v39_apply, val_main_v35_apply, val_main_v34_apply, val_main_cst_8_apply,
    val_main_v38_apply, val_main_v33_apply, val_main_cst_9_apply, val_main_cst_apply]
  simp only [Ideal.hostDivf_def, Ideal.maximumf_def, Ideal.ofBits_def, Ideal.ofBits_zero_f32, zero_add]
  rw [show Ideal.ofBits .f32 0x3F800000#32 = 1 from IdealRules.sign_bit.ideal_onePat .f32]
  refine IsReal.div_max_one (IsReal.sum _ fun k => ?_) (IsReal.sum _ fun k => mask_real x2 _)
  rw [val_main_v37_apply, val_main_v36_apply]
  exact (emb_real x1 x2 x3 x4 h4 _).mul (mask_real x2 _)

/-- THE REFERENCE'S PREDICTION at user `b` and point `l`, with the scale moved onto the preference vector. -/
theorem pred_apply (h4 : ∀ j, IsReal (x4 j)) (h5 : IsReal (x5 ix0)) (b : Fin 1024) (l : Fin 100000) :
    val_main_v51 (F := Ideal) x0 x1 x2 x3 x4 x5 (ix2 b l)
      = x0 (ix2 b l) + ∑ k : Fin 256, (pref x1 x2 x3 x4 (ix2 b k) * x5 ix0) * rows x3 x4 (ix2 l k) := by
  rw [val_main_v51_apply, val_main_v50_apply, val_main_v49_apply, val_main_v48_apply]
  have el : ∀ k : Fin 256, lidx_main_v48 (ix2 b l) k = ix2 b k := fun k =>
    funext fun a => Fin.ext (by match a with | ⟨0, _⟩ => rfl | ⟨1, _⟩ => rfl)
  have er : ∀ k : Fin 256, ridx_main_v48 (ix2 b l) k = ix2 l k := fun k =>
    funext fun a => Fin.ext (by match a with | ⟨0, _⟩ => rfl | ⟨1, _⟩ => rfl)
  simp only [el, er]
  rw [scaled_inner (fun k => pref x1 x2 x3 x4 (ix2 b k)) (fun k => rows x3 x4 (ix2 l k)) (x5 ix0)
    (fun k => pref_real x1 x2 x3 x4 h4 _) (fun k => rows_real x3 x4 h4 _) h5]
  rfl

end Cert.Scores.Ref

end
-- ==== Proof.FiniteIn.lean ====
/-
  From the precondition to real entries.

  The precondition says that every entry of the three float arguments has absolute value below +∞.  It is printed
  as three `all`-reductions joined by `and`; read back entry by entry, each says `max x (-x) < ⊤` of an extended
  real `x`, which rules out both infinities: `x` is a real number.  What the certificate needs of it is that the
  embedding table and the scale `alpha` have real entries (the predictions may be anything).
-/
import proofs.«125563_j61649960566862_1_alg».proof.Pre_finite_inputs
import proofs.«125563_j61649960566862_1_alg».proof.Proof.LibRealLaw
import Idealize.ShloMosaic.Lib.ReduceAll
import Idealize.ShloMosaic.Lib.ValueIdx
import Idealize.ShloMosaic.PureOps.Ideal.Laws

noncomputable section

namespace Cert.Scores

open Idealize.ShloMosaic Cert.Pre_finite_inputs Cert.Pre_finite_inputs.Facts

/-- The f32 word of +∞ denotes the top extended real. -/
theorem inf_word : Ideal.ofBits .f32 0x7F800000#32 = ⊤ := by simp [Ideal.ofBits, Ideal.ieee]

/-- An extended real whose absolute value is below +∞ is a real number. -/
theorem isReal_of_abs_lt_top {x : EReal} (h : Ideal.cmp .olt (max x (-x)) ⊤ = 1#1) : IsReal x := by
  induction x using EReal.rec with
  | bot => simp [Ideal.cmp] at h
  | top => simp [Ideal.cmp] at h
  | coe r => exact ⟨r, rfl⟩

instance : Subsingleton S_.Idx := ⟨fun a b => funext fun d => d.elim0⟩

variable [Cert.Pre_finite_inputs.Facts]

/-- Under the precondition the embedding table and the scale have real entries. -/
theorem real_of_pre (a0 : FVec Ideal S1024x100000 .f32) (a1 : IVec S1024x200 32) (a2 : IVec S1024 32) (a3 : IVec S100000 32)
    (a4 : FVec Ideal S1000x256 .f32) (a5 : FVec Ideal S_ .f32)
    (h : Cert.Pre_finite_inputs.fn (F := Ideal) a0 a1 a2 a3 a4 a5 = fun _ => 1#1) :
    (∀ j, IsReal (a4 j)) ∧ IsReal (a5 ValueIdx.ix0) := by
  have h0 := congrFun h ValueIdx.ix0
  dsimp only [Cert.Pre_finite_inputs.fn] at h0
  obtain ⟨h01, h5⟩ := IntOp.andi_eq_one.1 h0
  obtain ⟨-, h4⟩ := IntOp.andi_eq_one.1 h01
  refine ⟨fun j => isReal_of_abs_lt_top ?_, isReal_of_abs_lt_top ?_⟩
  · rw [← inf_word]
    exact Host.reduce_andi_all _ _ _ _ _ h4 j
  · rw [← inf_word]
    exact Host.reduce_andi_all _ _ _ _ _ h5 ValueIdx.ix0

end Cert.Scores

end
-- ==== Proof.KerBody.lean ====
/-
  The kernel's body at an index.

  At one grid point the body loads a 256 × 4096 block `base` of the padded predictions, the 256 × 256 block `u` of
  scaled preference vectors of its users and the 4096 × 256 block `r` of region embeddings of its points of
  interest, and stores `base + u · rᵀ`: the matrix unit's product of `u` with the transpose of `r`, accumulated into
  zero.  Read at row `p` and column `q` over the extended reals this is
      base[p, q] + ∑ k, u[p, k] * r[q, k]
  — the changes of float format are the identity, the zero accumulator adds nothing, and the transpose reads
  `r` at `(q, k)` where the product asks for `(k, q)`.
-/
import proofs.«125563_j61649960566862_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Scores.Ker

open Cert.KernelIdeal Cert.KernelIdeal.Gen Cert.KernelIdeal.Facts₀ Idealize.ShloMosaic Idealize.ShloMosaic.ValueIdx

/-! ## The product's operand indices: rows of the left operand, columns of the right, one contracted axis -/

theorem lhs_row (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide),
    dif_pos (show (0 : Fin S256x256.rank) ∈ dot_S256x256_S256x4096_S256x4096_1_0_0_1_n_n.lhsNonContracting by decide)]
  rfl

theorem lhs_col (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q

theorem rhs_row (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q

theorem rhs_col (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide),
    dif_pos (show (1 : Fin S256x4096.rank) ∈ dot_S256x256_S256x4096_S256x4096_1_0_0_1_n_n.rhsNonContracting by decide)]
  rfl

/-! ## The stored value at row `p`, column `q` -/

/-- The body's stored block at `(p, q)`: the loaded prediction there plus the inner product of row `p` of the
    preference block with row `q` of the embedding block. -/
theorem body_apply (u : Vec Ideal S256x256 .bf16) (r : Vec Ideal S4096x256 .bf16) (base : Vec Ideal S256x4096 .f32)
    (p : Fin 256) (q : Fin 4096) :
    k0_pay1 (F := Ideal) u r base (ix2 p q) = base (ix2 p q) + ∑ k : Fin 256, u (ix2 p k) * r (ix2 q k) := by
  unfold k0_pay1
  dsimp only
  rw [shapeCast_self, shapeCast_self, shapeCast_self, addf_apply]
  simp only [matmul]
  rw [Ideal.matmul_constant_zero_apply,
    ← Equiv.sum_comp (contrEquiv1 dot_S256x256_S256x4096_S256x4096_1_0_0_1_n_n 256 rfl rfl).symm]
  refine congrArg (base (ix2 p q) + ·) (Finset.sum_congr rfl fun k _ => ?_)
  have hk := contrEquiv1_symm_val dot_S256x256_S256x4096_S256x4096_1_0_0_1_n_n 256 rfl rfl k
  have el : dot_S256x256_S256x4096_S256x4096_1_0_0_1_n_n.lhsIdx (ix2 p q) ((contrEquiv1 dot_S256x256_S256x4096_S256x4096_1_0_0_1_n_n 256 rfl rfl).symm k) = ix2 p k :=
    funext fun a => Fin.ext (by
      match a with
      | ⟨0, _⟩ => exact lhs_row _ _
      | ⟨1, _⟩ => exact (lhs_col _ _).trans hk)
  have er : dot_S256x256_S256x4096_S256x4096_1_0_0_1_n_n.rhsIdx (ix2 p q) ((contrEquiv1 dot_S256x256_S256x4096_S256x4096_1_0_0_1_n_n 256 rfl rfl).symm k) = ix2 k q :=
    funext fun a => Fin.ext (by
      match a with
      | ⟨0, _⟩ => exact (rhs_row _ _).trans hk
      | ⟨1, _⟩ => exact rhs_col _ _)
  rw [el, er, transpose_ix2_apply]

end Cert.Scores.Ker

end
-- ==== Proof.KerBlocks.lean ====
/-
  From the body's blocks to the whole padded score array.

  The kernel runs over a 4 × 25 grid.  Point (i, j) takes block (i, j) of the padded predictions (256 × 4096 blocks of
  a 1024 × 102400 array), block i of the scaled preference vectors (256 rows, all 256 columns) and block j of the
  padded region embeddings (4096 rows, all 256 columns), and writes block (i, j) of the result.  So every entry
  (b, l) of the result lies in exactly the block of the point (b / 256, l / 4096), and what that point writes there
  is — by the body's value at an index, KerBody.lean —
      A[b, l] + ∑ k, U[b, k] * R[l, k]
  of the three operand arrays A, U, R as the region finds them.  The result array after the run is therefore that one
  function of the operand arrays (`scores`), at every index.
-/
import proofs.«125563_j61649960566862_1_alg».proof.Proof.Gen.KernelIdeal.Frame
import proofs.«125563_j61649960566862_1_alg».proof.Proof.KerBody

set_option maxRecDepth 16384

noncomputable section

namespace Cert.Scores.Ker

open Cert.KernelIdeal Cert.KernelIdeal.Gen Idealize.ShloMosaic Idealize.ShloMosaic.TcCoe
open Idealize.ShloMosaic.ValueIdx Idealize.SL.Sem
open Idealize.ShloMosaic.Pipeline (Dat Cfg Window)

/-- Row `b` of a 1024-row array at column `k`, `b` the row of an index of the padded score array. -/
abbrev userAt (i : S1024x102400.Idx) (k : Fin 256) : S1024x256.Idx := fun a => match a with
  | ⟨0, _⟩ => ⟨(i 0).val, (i 0).isLt⟩
  | ⟨1, _⟩ => ⟨k.val, k.isLt⟩

/-- Row `l` of a 102400-row array at column `k`, `l` the column of an index of the padded score array. -/
abbrev pointAt (i : S1024x102400.Idx) (k : Fin 256) : S102400x256.Idx := fun a => match a with
  | ⟨0, _⟩ => ⟨(i 1).val, (i 1).isLt⟩
  | ⟨1, _⟩ => ⟨k.val, k.isLt⟩

/-- The padded score array as one function of the padded predictions `A`, the scaled preference vectors `U` and the
    padded region embeddings `R`: at (b, l), `A[b, l] + ∑ k, U[b, k] * R[l, k]`. -/
def scores (A : Vec Ideal S1024x102400 .f32) (U : Vec Ideal S1024x256 .bf16) (R : Vec Ideal S102400x256 .bf16) :
    Vec Ideal S1024x102400 .f32 :=
  fun i => A i + ∑ k : Fin 256, U (userAt i k) * R (pointAt i k)

variable (m : (ℓ : Loc nD τ sig) → Buf (Elt Ideal) ℓ)

theorem zero_offsets : (![0, 0] : Fin 2 → Nat) = fun _ => 0 := funext fun a => by fin_cases a <;> rfl

/-- The printed index maps, decided over the grid: the prediction block moves with the result block; the preference
    block follows the result's block row and stays at block column 0; the embedding block follows the result's
    block column and stays at block column 0; the result's block indices stay within 4 × 25. -/
theorem index_maps : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = 0
    ∧ win0_2.index t (0 : Fin 2) = win0_3.index t (1 : Fin 2)
    ∧ win0_2.index t (1 : Fin 2) = 0
    ∧ win0_3.index t (0 : Fin 2) ≤ 3 ∧ win0_3.index t (1 : Fin 2) ≤ 24 :=
  (by decide +kernel : ∀ t : Fin grid0.N, _)

/-- Every block of the 4 × 25 tiling is some point's. -/
theorem index_onto : ∀ (q0 : Fin 4) (q1 : Fin 25), ∃ t : Fin cfg0.N, win0_3.index t = ![q0.val, q1.val] :=
  (by decide +kernel : ∀ (q0 : Fin 4) (q1 : Fin 25), ∃ t : Fin grid0.N, win0_3.index t = ![q0.val, q1.val])

/-! ## A point's three input blocks, read where the result block's index says

Each is stated for an ARBITRARY array `A` in the window's place: a block's entry is the array's at block index × block
size + the position inside the block, per axis, and the decided relations between the index maps turn the input
windows' block indices into the result window's. -/

set_option maxHeartbeats 1000000 in
/-- The prediction block at (p, q) is the array at the result block's (p, q). -/
theorem read_base (A : Vec Ideal S1024x102400 .f32) (t : Fin cfg0.N) (p : Fin 256) (q : Fin 4096) :
    A (((cfg0.win 0).blk t).view.emb (ix2 p q)) = A (((cfg0.win 3).blk t).view.emb (ix2 p q)) := by
  obtain ⟨e0, e1, e2, e3, e4, e5, e6, e7⟩ := index_maps t
  refine congrArg A (funext fun a => Fin.ext ?_)
  match a with
  | ⟨0, _⟩ => show win0_0.index t (0 : Fin 2) * 256 + 1 * p.val = win0_3.index t (0 : Fin 2) * 256 + 1 * p.val; omega
  | ⟨1, _⟩ => show win0_0.index t (1 : Fin 2) * 4096 + 1 * q.val = win0_3.index t (1 : Fin 2) * 4096 + 1 * q.val; omega

set_option maxHeartbeats 1000000 in
/-- The preference block at (p, k) is the array at the result entry's user row and column k. -/
theorem read_prefs (U : Vec Ideal S1024x256 .bf16) (t : Fin cfg0.N) (p : Fin 256) (q : Fin 4096) (k : Fin 256) :
    U (((cfg0.win 1).blk t).view.emb (ix2 p k)) = U (userAt (((cfg0.win 3).blk t).view.emb (ix2 p q)) k) := by
  obtain ⟨e0, e1, e2, e3, e4, e5, e6, e7⟩ := index_maps t
  refine congrArg U (funext fun a => Fin.ext ?_)
  match a with
  | ⟨0, _⟩ => show win0_1.index t (0 : Fin 2) * 256 + 1 * p.val = win0_3.index t (0 : Fin 2) * 256 + 1 * p.val; omega
  | ⟨1, _⟩ => show win0_1.index t (1 : Fin 2) * 256 + 1 * k.val = k.val; omega

set_option maxHeartbeats 1000000 in
/-- The embedding block at (q, k) is the array at the result entry's point row and column k. -/
theorem read_rows (R : Vec Ideal S102400x256 .bf16) (t : Fin cfg0.N) (p : Fin 256) (q : Fin 4096) (k : Fin 256) :
    R (((cfg0.win 2).blk t).view.emb (ix2 q k)) = R (pointAt (((cfg0.win 3).blk t).view.emb (ix2 p q)) k) := by
  obtain ⟨e0, e1, e2, e3, e4, e5, e6, e7⟩ := index_maps t
  refine congrArg R (funext fun a => Fin.ext ?_)
  match a with
  | ⟨0, _⟩ => show win0_2.index t (0 : Fin 2) * 4096 + 1 * q.val = win0_3.index t (1 : Fin 2) * 4096 + 1 * q.val; omega
  | ⟨1, _⟩ => show win0_2.index t (1 : Fin 2) * 256 + 1 * k.val = k.val; omega

/-- The three reads together: the body's value at (p, q) over a point's blocks is `scores` at the result block's (p, q). -/
theorem block_value (A : Vec Ideal S1024x102400 .f32) (U : Vec Ideal S1024x256 .bf16) (R : Vec Ideal S102400x256 .bf16)
    (t : Fin cfg0.N) (p : Fin 256) (q : Fin 4096) :
    A (((cfg0.win 0).blk t).view.emb (ix2 p q))
        + ∑ k : Fin 256, U (((cfg0.win 1).blk t).view.emb (ix2 p k)) * R (((cfg0.win 2).blk t).view.emb (ix2 q k))
      = scores A U R (((cfg0.win 3).blk t).view.emb (ix2 p q)) := by
  unfold scores
  rw [read_base A t p q]
  exact congrArg (_ + ·) (Finset.sum_congr rfl fun k _ => by rw [read_prefs U t p q k, read_rows R t p q k])

set_option maxHeartbeats 1000000 in
/-- WHAT POINT `t` WRITES BACK is block `t` of `scores` of the operand arrays as the region finds them. -/
theorem flushed_eq (c : Dev nD) (t : Fin cfg0.N) :
    (dats (F := Ideal) m 0 c).flushed 3 t
      = ((cfg0.win 3).blk t).view.read (Elt Ideal) (scores (V m c (Pipeline.arrRef spec0 0)) (V m c (Pipeline.arrRef spec0 1))
          (V m c (Pipeline.arrRef spec0 2))) := by
  show (cfg0.win 3).cut (grid0.coords t) ((dats (F := Ideal) m 0 c).after 3 t) = _
  rw [after0_3]
  unfold out0_3
  rw [View.canon_unit_zero zero_offsets]
  simp only [View.ld_unit_zero (S := S256x256) zero_offsets, View.ld_unit_zero (S := S4096x256) zero_offsets,
    View.ld_unit_zero (S := S256x4096) zero_offsets]
  funext j
  obtain ⟨p, q, rfl⟩ : ∃ (p : Fin 256) (q : Fin 4096), j = ix2 p q := ⟨j 0, j 1, eq_ix2 j⟩
  refine (body_apply (iblk m c 1 t) (iblk m c 2 t) (iblk m c 0 t) p q).trans ?_
  exact block_value (V m c (Pipeline.arrRef spec0 0)) (V m c (Pipeline.arrRef spec0 1)) (V m c (Pipeline.arrRef spec0 2)) t p q

/-- An index of the result array is in point `t`'s block iff each coordinate is in the block's range on its axis. -/
theorem mem_block (t : Fin cfg0.N) (i : S1024x102400.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v55).slice (win0_3.rect t)).set ↔ _
  rw [View.set_slice_whole, Rect.mem_set_unit]
  exact Iff.rfl

/-- THE COVER: entry (b, l) is in the block of the point with block indices (b / 256, l / 4096). -/
theorem covered (i : S1024x102400.Idx) :
    ∃ t : Fin cfg0.N, (cfg0.win 3).flush t = true ∧ i ∈ ((cfg0.win 3).blk t).view.set := by
  have hi0 : (i 0).val < 1024 := (i 0).isLt
  have hi1 : (i 1).val < 102400 := (i 1).isLt
  obtain ⟨t, ht⟩ := index_onto ⟨(i 0).val / 256, by omega⟩ ⟨(i 1).val / 4096, by omega⟩
  have q0 : win0_3.index t (0 : Fin 2) = (i 0).val / 256 := congrFun ht 0
  have q1 : win0_3.index t (1 : Fin 2) = (i 1).val / 4096 := congrFun ht 1
  refine ⟨t, flush0_3 t, ?_⟩
  rw [mem_block]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-- THE RESULT ARRAY after the run is `scores` of the operand arrays as the region finds them. -/
theorem result_array (c : Dev nD) :
    (dats (F := Ideal) m 0 c).arrAt 3 cfg0.N
      = scores (V m c (Pipeline.arrRef spec0 0)) (V m c (Pipeline.arrRef spec0 1)) (V m c (Pipeline.arrRef spec0 2)) :=
  (dats (F := Ideal) m 0 c).arrAt_eq_of_cover 3 _ (fun t _ => flushed_eq m c t) covered

end Cert.Scores.Ker

end
-- ==== Proof.KerHost.lean ====
/-
  What the region finds in its operand arrays.

  Before the kernel is launched, @main computes — by the same operations, in the same order, as the reference — the
  users' preference vectors `pref` and the region embedding rows `rows` of all points of interest; it then scales the
  preference vectors by `alpha`, pads the predictions and the embedding rows with 2400 further columns / rows up to a
  multiple of the block size (the preference vectors need no padding), and rounds the two matrix operands to
  bf16, which over the extended reals changes nothing.  So, where the padded arrays are read INSIDE the original
  extents, the region finds
      predictions (b, l)        = pred_base[b, l]
      scaled preferences (b, k) = pref[b, k] * alpha
      embedding rows (l, k)     = rows[l, k]
  with `pref` and `rows` the very stages of the reference's reading (RefSide.lean).  The contents are taken in two
  steps: first the buffers as they stand before the three pads (`beforePads`), a long fold that is read in four
  stretches; then the nine operations of the pads and the format changes over those.
-/
import proofs.«125563_j61649960566862_1_alg».proof.Proof.Gen.KernelIdeal.Frame
import proofs.«125563_j61649960566862_1_alg».proof.Proof.RefSide
import proofs.«125563_j61649960566862_1_alg».proof.Proof.LibTypedRef
import Idealize.ShloMosaic.Lib.StableHlo.Run
import Idealize.ShloMosaic.Lib.KernelVsHost
import Idealize.ShloMosaic.Lib.ValueIdx

noncomputable section

namespace Cert.Scores.Ker

open Cert.KernelIdeal Cert.KernelIdeal.Gen Idealize.ShloMosaic Idealize.ShloMosaic.TcCoe
open Idealize.ShloMosaic.ValueIdx Idealize.SL.Sem Idealize.ShloMosaic.StableHlo

variable (m : (ℓ : Loc nD τ sig) → Buf (Elt Ideal) ℓ)

/-- Core `c`'s buffer contents after @main's operations up to the scaling of the preference vectors, before the pads. -/
def beforePads (c : Dev nD) : Valuation τ sig (Elt Ideal) :=
  StableHlo.after hostOps0_3 (StableHlo.after hostOps0_2 (StableHlo.after hostOps0_1 (StableHlo.after hostOps0 (fun b => m (c, b)))))

/-- The region-entry contents are the pads and format changes over `beforePads`. -/
theorem entry_eq (c : Dev nD) :
    V0 m c = StableHlo.after hostOps0_9 (StableHlo.after hostOps0_8 (StableHlo.after hostOps0_7 (StableHlo.after hostOps0_6
      (StableHlo.after hostOps0_5 (StableHlo.after hostOps0_4 (beforePads m c)))))) := by
  show StableHlo.after (List.flatten [hostOps0, hostOps0_1, hostOps0_2, hostOps0_3, hostOps0_4, hostOps0_5, hostOps0_6,
    hostOps0_7, hostOps0_8, hostOps0_9]) (fun b => m (c, b)) = _
  unfold beforePads
  simp only [List.flatten_cons, List.flatten_nil, List.append_nil, StableHlo.after_append]

/-! ## The nine operations after `beforePads`: the pads read inside the original extents, the format changes -/

/-- The padded predictions at (b, l), l within the original 100000 columns, are the predictions there. -/
theorem base_inside (c : Dev nD) (b : Fin 1024) (l : Fin 100000) :
    V m c main_v50 (ix2 b (⟨l.val, by omega⟩ : Fin 102400)) = beforePads m c (Proc.devRef .tc main_arg0) (ix2 b l) := by
  show V0 m c (Proc.devRef .tc main_v50) _ = _
  rw [entry_eq]
  generalize beforePads m c = W
  simp only [hostOps0_4, hostOps0_5, hostOps0_6, hostOps0_7, hostOps0_8, hostOps0_9]
  after_results
  show pad S1024x102400 ![0, 0] ![0, 2400] ![0, 0] (W (Proc.devRef .tc main_arg0) : FVec Ideal S1024x100000 .f32)
    (_ : FVec Ideal S_ .f32) pads_S1024x100000_S1024x102400_000_024000 h_S_ (ix2 b (⟨l.val, by omega⟩ : Fin 102400)) = _
  exact pad_apply_of_inside ![0, 0] ![0, 2400] ![0, 0] (W (Proc.devRef .tc main_arg0) : FVec Ideal S1024x100000 .f32) _
    pads_S1024x100000_S1024x102400_000_024000 h_S_ (ix2 b (⟨l.val, by omega⟩ : Fin 102400)) (ix2 b l) (fun a => by
    match a with
    | ⟨0, _⟩ => show b.val = 0 + b.val * (0 + 1); omega
    | ⟨1, _⟩ => show l.val = 0 + l.val * (0 + 1); omega)

/-- The scaled preference vectors at (b, k): padded by nothing and rounded to bf16, they are as before the pads. -/
theorem prefs_inside (c : Dev nD) (b : Fin 1024) (k : Fin 256) :
    V m c main_v53 (ix2 b k) = beforePads m c (Proc.devRef .tc main_v49) (ix2 b k) := by
  show V0 m c (Proc.devRef .tc main_v53) _ = _
  rw [entry_eq]
  generalize beforePads m c = W
  simp only [hostOps0_4, hostOps0_5, hostOps0_6, hostOps0_7, hostOps0_8, hostOps0_9]
  after_results
  show pad S1024x256 ![0, 0] ![0, 0] ![0, 0] (W (Proc.devRef .tc main_v49) : FVec Ideal S1024x256 .f32)
    (_ : FVec Ideal S_ .f32) pads_S1024x256_S1024x256_000_000 h_S_ (ix2 b k) = _
  exact pad_apply_of_inside ![0, 0] ![0, 0] ![0, 0] (W (Proc.devRef .tc main_v49) : FVec Ideal S1024x256 .f32) _
    pads_S1024x256_S1024x256_000_000 h_S_ (ix2 b k) (ix2 b k) (fun a => by
    match a with
    | ⟨0, _⟩ => show b.val = 0 + b.val * (0 + 1); omega
    | ⟨1, _⟩ => show k.val = 0 + k.val * (0 + 1); omega)

/-- The padded embedding rows at (l, k), l within the original 100000 rows, are the embedding rows there. -/
theorem rows_inside (c : Dev nD) (l : Fin 100000) (k : Fin 256) :
    V m c main_v54 (ix2 (⟨l.val, by omega⟩ : Fin 102400) k) = beforePads m c (Proc.devRef .tc main_v47) (ix2 l k) := by
  show V0 m c (Proc.devRef .tc main_v54) _ = _
  rw [entry_eq]
  generalize beforePads m c = W
  simp only [hostOps0_4, hostOps0_5, hostOps0_6, hostOps0_7, hostOps0_8, hostOps0_9]
  after_results
  show pad S102400x256 ![0, 0] ![2400, 0] ![0, 0] (W (Proc.devRef .tc main_v47) : FVec Ideal S100000x256 .f32)
    (_ : FVec Ideal S_ .f32) pads_S100000x256_S102400x256_024000_000 h_S_ (ix2 (⟨l.val, by omega⟩ : Fin 102400) k) = _
  exact pad_apply_of_inside ![0, 0] ![2400, 0] ![0, 0] (W (Proc.devRef .tc main_v47) : FVec Ideal S100000x256 .f32) _
    pads_S100000x256_S102400x256_024000_000 h_S_ (ix2 (⟨l.val, by omega⟩ : Fin 102400) k) (ix2 l k) (fun a => by
    match a with
    | ⟨0, _⟩ => show l.val = 0 + l.val * (0 + 1); omega
    | ⟨1, _⟩ => show k.val = 0 + k.val * (0 + 1); omega)

/-- The pads and format changes do not touch the preference vectors. -/
theorem pref_kept (c : Dev nD) : V m c main_v40 = beforePads m c (Proc.devRef .tc main_v40) := by
  show V0 m c (Proc.devRef .tc main_v40) = _
  rw [entry_eq]
  generalize beforePads m c = W
  simp only [hostOps0_4, hostOps0_5, hostOps0_6, hostOps0_7, hostOps0_8, hostOps0_9]
  after_results

/-! ## The long fold, read in four stretches over arbitrary earlier contents

The host operations before the pads are, up to the embedding rows, the reference's own, in the same order.  Written out
as one term the fold repeats shared intermediate values many times over, so it is read in the four stretches @main is
printed in — the window positions and the validity mask; the clipping; the gather of the visited points; the rest —
each over arbitrary earlier contents `W` of which only the few live values are assumed, and each identified with the
stage of the reference's generated reading that computes the same value. -/

set_option maxHeartbeats 2000000 in
/-- The first stretch writes no argument. -/
theorem kept_positions (W : Valuation τ sig (Elt Ideal)) :
    StableHlo.after hostOps0 W (Proc.devRef .tc main_arg0) = W (Proc.devRef .tc main_arg0)
    ∧ StableHlo.after hostOps0 W (Proc.devRef .tc main_arg1) = W (Proc.devRef .tc main_arg1)
    ∧ StableHlo.after hostOps0 W (Proc.devRef .tc main_arg2) = W (Proc.devRef .tc main_arg2)
    ∧ StableHlo.after hostOps0 W (Proc.devRef .tc main_arg3) = W (Proc.devRef .tc main_arg3)
    ∧ StableHlo.after hostOps0 W (Proc.devRef .tc main_arg4) = W (Proc.devRef .tc main_arg4)
    ∧ StableHlo.after hostOps0 W (Proc.devRef .tc main_arg5) = W (Proc.devRef .tc main_arg5) := by
  simp only [hostOps0]
  refine ⟨?_, ?_, ?_, ?_, ?_, ?_⟩ <;> after_results_simp

set_option maxHeartbeats 2000000 in
/-- The clipping writes neither the validity mask nor an argument. -/
theorem kept_clip (W : Valuation τ sig (Elt Ideal)) :
    StableHlo.after hostOps0_1 W (Proc.devRef .tc main_v14) = W (Proc.devRef .tc main_v14)
    ∧ StableHlo.after hostOps0_1 W (Proc.devRef .tc main_arg0) = W (Proc.devRef .tc main_arg0)
    ∧ StableHlo.after hostOps0_1 W (Proc.devRef .tc main_arg1) = W (Proc.devRef .tc main_arg1)
    ∧ StableHlo.after hostOps0_1 W (Proc.devRef .tc main_arg2) = W (Proc.devRef .tc main_arg2)
    ∧ StableHlo.after hostOps0_1 W (Proc.devRef .tc main_arg3) = W (Proc.devRef .tc main_arg3)
    ∧ StableHlo.after hostOps0_1 W (Proc.devRef .tc main_arg4) = W (Proc.devRef .tc main_arg4)
    ∧ StableHlo.after hostOps0_1 W (Proc.devRef .tc main_arg5) = W (Proc.devRef .tc main_arg5) := by
  simp only [hostOps0_1]
  refine ⟨?_, ?_, ?_, ?_, ?_, ?_, ?_⟩ <;> after_results_simp

set_option maxHeartbeats 2000000 in
/-- The gather of the visited points writes neither the validity mask nor an argument. -/
theorem kept_visits (W : Valuation τ sig (Elt Ideal)) :
    StableHlo.after hostOps0_2 W (Proc.devRef .tc main_v14) = W (Proc.devRef .tc main_v14)
    ∧ StableHlo.after hostOps0_2 W (Proc.devRef .tc main_arg0) = W (Proc.devRef .tc main_arg0)
    ∧ StableHlo.after hostOps0_2 W (Proc.devRef .tc main_arg1) = W (Proc.devRef .tc main_arg1)
    ∧ StableHlo.after hostOps0_2 W (Proc.devRef .tc main_arg2) = W (Proc.devRef .tc main_arg2)
    ∧ StableHlo.after hostOps0_2 W (Proc.devRef .tc main_arg3) = W (Proc.devRef .tc main_arg3)
    ∧ StableHlo.after hostOps0_2 W (Proc.devRef .tc main_arg4) = W (Proc.devRef .tc main_arg4)
    ∧ StableHlo.after hostOps0_2 W (Proc.devRef .tc main_arg5) = W (Proc.devRef .tc main_arg5) := by
  simp only [hostOps0_2]
  refine ⟨?_, ?_, ?_, ?_, ?_, ?_, ?_⟩ <;> after_results_simp

set_option maxHeartbeats 2000000 in
/-- The last stretch before the pads writes no argument. -/
theorem kept_operands (W : Valuation τ sig (Elt Ideal)) :
    StableHlo.after hostOps0_3 W (Proc.devRef .tc main_arg0) = W (Proc.devRef .tc main_arg0)
    ∧ StableHlo.after hostOps0_3 W (Proc.devRef .tc main_arg1) = W (Proc.devRef .tc main_arg1)
    ∧ StableHlo.after hostOps0_3 W (Proc.devRef .tc main_arg2) = W (Proc.devRef .tc main_arg2)
    ∧ StableHlo.after hostOps0_3 W (Proc.devRef .tc main_arg3) = W (Proc.devRef .tc main_arg3)
    ∧ StableHlo.after hostOps0_3 W (Proc.devRef .tc main_arg4) = W (Proc.devRef .tc main_arg4)
    ∧ StableHlo.after hostOps0_3 W (Proc.devRef .tc main_arg5) = W (Proc.devRef .tc main_arg5) := by
  simp only [hostOps0_3]
  refine ⟨?_, ?_, ?_, ?_, ?_, ?_⟩ <;> after_results_simp

/-- First stretch (up to the clipping of the window positions): the unclipped positions, the validity mask and the two
    clipping bounds are the reference reading's stages of the sequence lengths. -/
theorem stage_positions (W : Valuation τ sig (Elt Ideal)) :
    StableHlo.after hostOps0 W (Proc.devRef .tc main_v7) = Cert.ReferenceIdeal.Read.val_main_v7 (F := Ideal) (W (Proc.devRef .tc main_arg2))
    ∧ StableHlo.after hostOps0 W (Proc.devRef .tc main_v14) = Cert.ReferenceIdeal.Read.val_main_v14 (F := Ideal) (W (Proc.devRef .tc main_arg2))
    ∧ StableHlo.after hostOps0 W (Proc.devRef .tc main_c_2) = Cert.ReferenceIdeal.Read.val_main_c_2 (F := Ideal)
    ∧ StableHlo.after hostOps0 W (Proc.devRef .tc main_c_3) = Cert.ReferenceIdeal.Read.val_main_c_3 (F := Ideal) := by
  simp only [hostOps0]
  refine ⟨?_, ?_, ?_, ?_⟩ <;> (after_results <;> rfl)

/-- Second stretch (the clipping): from the unclipped positions and the bounds, the clipped positions. -/
theorem stage_clip (W : Valuation τ sig (Elt Ideal)) (a2 : (⟨Cert.ReferenceIdeal.S1024, .i32⟩ : BufTy).Contents (Elt Ideal))
    (h7 : W (Proc.devRef .tc main_v7) = Cert.ReferenceIdeal.Read.val_main_v7 (F := Ideal) a2)
    (hlo : W (Proc.devRef .tc main_c_2) = Cert.ReferenceIdeal.Read.val_main_c_2 (F := Ideal))
    (hhi : W (Proc.devRef .tc main_c_3) = Cert.ReferenceIdeal.Read.val_main_c_3 (F := Ideal)) :
    StableHlo.after hostOps0_1 W (Proc.devRef .tc main_v15) = Cert.ReferenceIdeal.Read.val_main_v15 (F := Ideal) a2 := by
  simp only [hostOps0_1]
  after_results
  rw [h7, hlo, hhi]
  rfl

/-- The gather stretch, first piece (8 operations): the start indices. -/
abbrev visitsWrap : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1024x10, .i32⟩) (broadcastInDim S1024x10 ![] bcast_S_S1024x10),
    StableHlo.TRef.binary (.of main_v15 : StableHlo.TRef sig ⟨S1024x10, .i32⟩) (.of main_call1_v0 : StableHlo.TRef sig ⟨S1024x10, .i32⟩) (.of main_call1_v1 : StableHlo.TRef sig ⟨S1024x10, .i1⟩) (cmpi .slt),
    StableHlo.TRef.nullary (.of main_call1_c_0 : StableHlo.TRef sig ⟨S_, .i32⟩) (constantI S_ 32 200#32),
    StableHlo.TRef.unary (.of main_call1_c_0 : StableHlo.TRef sig ⟨S_, .i32⟩) (.of main_call1_v2 : StableHlo.TRef sig ⟨S1024x10, .i32⟩) (broadcastInDim S1024x10 ![] bcast_S_S1024x10),
    StableHlo.TRef.binary (.of main_v15 : StableHlo.TRef sig ⟨S1024x10, .i32⟩) (.of main_call1_v2 : StableHlo.TRef sig ⟨S1024x10, .i32⟩) (.of main_call1_v3 : StableHlo.TRef sig ⟨S1024x10, .i32⟩) addi,
    StableHlo.TRef.ternary (.of main_call1_v1 : StableHlo.TRef sig ⟨S1024x10, .i1⟩) (.of main_call1_v3 : StableHlo.TRef sig ⟨S1024x10, .i32⟩) (.of main_v15 : StableHlo.TRef sig ⟨S1024x10, .i32⟩) (.of main_call1_v4 : StableHlo.TRef sig ⟨S1024x10, .i32⟩) select,
    StableHlo.TRef.reshape (.of main_call1_v4 : StableHlo.TRef sig ⟨S1024x10, .i32⟩) (.of main_call1_v5 : StableHlo.TRef sig ⟨S1024x10x1, .i32⟩) rfl shapeCasts_S1024x10_S1024x10x1 ]

/-- The gather stretch, second piece (10 operations): the in-bounds mask. -/
abbrev visitsInbounds : List (HloOp τ sig (Elt Ideal)) :=
  [ StableHlo.TRef.nullary (.of main_call1_c_1 : StableHlo.TRef sig ⟨S1, .i32⟩) (constantI S1 32 199#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1024x10x1, .i32⟩) (broadcastInDim S1024x10x1 ![] bcast_S_S1024x10x1),
    StableHlo.TRef.binary (.of main_call1_v5 : StableHlo.TRef sig ⟨S1024x10x1, .i32⟩) (.of main_call1_v6 : StableHlo.TRef sig ⟨S1024x10x1, .i32⟩) (.of main_call1_v7 : StableHlo.TRef sig ⟨S1024x10x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S1024x10x1, .i32⟩) (broadcastInDim S1024x10x1 ![0, 1, 2] bcast_S1x1x1_S1024x10x1_0_1_2),
    StableHlo.TRef.binary (.of main_call1_v5 : StableHlo.TRef sig ⟨S1024x10x1, .i32⟩) (.of main_call1_v9 : StableHlo.TRef sig ⟨S1024x10x1, .i32⟩) (.of main_call1_v10 : StableHlo.TRef sig ⟨S1024x10x1, .i1⟩) (cmpi .sle),
    StableHlo.TRef.binary (.of main_call1_v7 : StableHlo.TRef sig ⟨S1024x10x1, .i1⟩) (.of main_call1_v10 : StableHlo.TRef sig ⟨S1024x10x1, .i1⟩) (.of main_call1_v11 : StableHlo.TRef sig ⟨S1024x10x1, .i1⟩) andi,
    StableHlo.TRef.nullary (.of main_call1_c_3 : StableHlo.TRef sig ⟨S_, .i1⟩) (constantI S_ 1 1#1),
    StableHlo.TRef.binary (.of main_call1_v11 : StableHlo.TRef sig ⟨S1024x10x1, .i1⟩) (.of main_call1_c_3 : StableHlo.TRef sig ⟨S_, .i1⟩) (.of main_call1_v12 : StableHlo.TRef sig ⟨S1024x10, .i1⟩) (fun x v => Host.reduce IntOp.andi x v reducesTo_S1024x10x1_S1024x10_d2 h_S_) ]

/-- The gather stretch, third piece (4 operations): the gather and the fill. -/
abbrev visitsSelect : List (HloOp τ sig (Elt Ideal)) :=
  [ StableHlo.TRef.binary (.of main_arg1 : StableHlo.TRef sig ⟨S1024x200, .i32⟩) (.of main_call1_v5 : StableHlo.TRef sig ⟨S1024x10x1, .i32⟩) (.of main_call1_v13 : StableHlo.TRef sig ⟨S1024x10, .i32⟩) (fun x i => Host.gather gather_S1024x200_S1024x10x1_S1024x10_n_1_0_0_1_2_11 x i),
    StableHlo.TRef.nullary (.of main_call1_c_4 : StableHlo.TRef sig ⟨S_, .i32⟩) (constantI S_ 32 2147483648#32),
    StableHlo.TRef.unary (.of main_call1_c_4 : StableHlo.TRef sig ⟨S_, .i32⟩) (.of main_call1_v14 : StableHlo.TRef sig ⟨S1024x10, .i32⟩) (broadcastInDim S1024x10 ![] bcast_S_S1024x10),
    StableHlo.TRef.ternary (.of main_call1_v12 : StableHlo.TRef sig ⟨S1024x10, .i1⟩) (.of main_call1_v13 : StableHlo.TRef sig ⟨S1024x10, .i32⟩) (.of main_call1_v14 : StableHlo.TRef sig ⟨S1024x10, .i32⟩) (.of main_v16 : StableHlo.TRef sig ⟨S1024x10, .i32⟩) select ]

/-- The gather stretch is its three pieces in order. -/
theorem visits_split : (hostOps0_2 : List (HloOp τ sig (Elt Ideal))) = visitsWrap ++ (visitsInbounds ++ visitsSelect) := rfl

set_option maxHeartbeats 1000000 in
/-- First piece: the clipped positions, negative ones wrapped by the sequence length, as a column of start indices. -/
theorem stage_wrap (W : Valuation τ sig (Elt Ideal)) (a2 : (⟨Cert.ReferenceIdeal.S1024, .i32⟩ : BufTy).Contents (Elt Ideal))
    (h15 : W (Proc.devRef .tc main_v15) = Cert.ReferenceIdeal.Read.val_main_v15 (F := Ideal) a2) :
    StableHlo.after visitsWrap W (Proc.devRef .tc main_call1_v5) = Cert.ReferenceIdeal.Read.val_main_call1_v5 (F := Ideal) a2 := by
  simp only [visitsWrap]
  after_results
  rw [h15]
  rfl

set_option maxHeartbeats 1000000 in
/-- The first piece does not write the visit sequences. -/
theorem kept_wrap (W : Valuation τ sig (Elt Ideal)) :
    StableHlo.after visitsWrap W (Proc.devRef .tc main_arg1) = W (Proc.devRef .tc main_arg1) := by
  simp only [visitsWrap]
  after_results_simp

set_option maxHeartbeats 1000000 in
/-- Second piece: which start indices lie inside the sequence. -/
theorem stage_inbounds (W : Valuation τ sig (Elt Ideal)) (a2 : (⟨Cert.ReferenceIdeal.S1024, .i32⟩ : BufTy).Contents (Elt Ideal))
    (h5 : W (Proc.devRef .tc main_call1_v5) = Cert.ReferenceIdeal.Read.val_main_call1_v5 (F := Ideal) a2) :
    StableHlo.after visitsInbounds W (Proc.devRef .tc main_call1_v12) = Cert.ReferenceIdeal.Read.val_main_call1_v12 (F := Ideal) a2 := by
  have h5' : W (Proc.devRef .tc main_call1_v5)
      = (TRef.of (T := ⟨S1024x10x1, .i32⟩) main_call1_v5).toBuf (Cert.ReferenceIdeal.Read.val_main_call1_v5 (F := Ideal) a2) := h5.trans rfl
  simp only [visitsInbounds]
  after_results
  rw [h5']
  simp only [TRef.ofBuf_toBuf]
  refine (congrArg (TRef.toBuf (TRef.of (T := ⟨S1024x10, .i1⟩) main_call1_v12))
    (?_ : _ = Cert.ReferenceIdeal.Read.val_main_call1_v12 (F := Ideal) a2)).trans rfl
  rfl

set_option maxHeartbeats 1000000 in
/-- The second piece writes neither the start indices nor the visit sequences. -/
theorem kept_inbounds (W : Valuation τ sig (Elt Ideal)) :
    StableHlo.after visitsInbounds W (Proc.devRef .tc main_call1_v5) = W (Proc.devRef .tc main_call1_v5)
    ∧ StableHlo.after visitsInbounds W (Proc.devRef .tc main_arg1) = W (Proc.devRef .tc main_arg1) := by
  simp only [visitsInbounds]
  refine ⟨?_, ?_⟩ <;> after_results_simp

set_option maxHeartbeats 1000000 in
/-- Third piece: the gather along each user's sequence, and the fill value where the start index is outside. -/
theorem stage_select (W : Valuation τ sig (Elt Ideal)) (a1 : (⟨Cert.ReferenceIdeal.S1024x200, .i32⟩ : BufTy).Contents (Elt Ideal))
    (a2 : (⟨Cert.ReferenceIdeal.S1024, .i32⟩ : BufTy).Contents (Elt Ideal))
    (h12 : W (Proc.devRef .tc main_call1_v12) = Cert.ReferenceIdeal.Read.val_main_call1_v12 (F := Ideal) a2)
    (h5 : W (Proc.devRef .tc main_call1_v5) = Cert.ReferenceIdeal.Read.val_main_call1_v5 (F := Ideal) a2) (h1 : W (Proc.devRef .tc main_arg1) = a1) :
    StableHlo.after visitsSelect W (Proc.devRef .tc main_v16) = Cert.ReferenceIdeal.Read.val_main_v16 (F := Ideal) a1 a2 := by
  have h12' : W (Proc.devRef .tc main_call1_v12)
      = (TRef.of (T := ⟨S1024x10, .i1⟩) main_call1_v12).toBuf (Cert.ReferenceIdeal.Read.val_main_call1_v12 (F := Ideal) a2) := h12.trans rfl
  have h5' : W (Proc.devRef .tc main_call1_v5)
      = (TRef.of (T := ⟨S1024x10x1, .i32⟩) main_call1_v5).toBuf (Cert.ReferenceIdeal.Read.val_main_call1_v5 (F := Ideal) a2) := h5.trans rfl
  have h1' : W (Proc.devRef .tc main_arg1) = (TRef.of (T := ⟨S1024x200, .i32⟩) main_arg1).toBuf a1 := h1.trans rfl
  simp only [visitsSelect]
  after_results
  rw [h12', h5', h1']
  simp only [TRef.ofBuf_toBuf]
  refine (congrArg (TRef.toBuf (TRef.of (T := ⟨S1024x10, .i32⟩) main_v16))
    (?_ : _ = Cert.ReferenceIdeal.Read.val_main_v16 (F := Ideal) a1 a2)).trans rfl
  rfl

/-- Third stretch (the gather of the visited points along each user's sequence): from the visit sequences and the
    clipped positions, the visited points — its three pieces chained. -/
theorem stage_visits (W : Valuation τ sig (Elt Ideal)) (a1 : (⟨Cert.ReferenceIdeal.S1024x200, .i32⟩ : BufTy).Contents (Elt Ideal))
    (a2 : (⟨Cert.ReferenceIdeal.S1024, .i32⟩ : BufTy).Contents (Elt Ideal))
    (h15 : W (Proc.devRef .tc main_v15) = Cert.ReferenceIdeal.Read.val_main_v15 (F := Ideal) a2) (h1 : W (Proc.devRef .tc main_arg1) = a1) :
    StableHlo.after hostOps0_2 W (Proc.devRef .tc main_v16) = Cert.ReferenceIdeal.Read.val_main_v16 (F := Ideal) a1 a2 := by
  rw [visits_split]
  simp only [StableHlo.after_append]
  have s5 := stage_wrap W a2 h15
  obtain ⟨j5, j1⟩ := kept_inbounds (StableHlo.after visitsWrap W)
  have s12 := stage_inbounds (StableHlo.after visitsWrap W) a2 s5
  exact stage_select (StableHlo.after visitsInbounds (StableHlo.after visitsWrap W)) a1 a2 s12 (j5.trans s5) ((j1.trans (kept_wrap W)).trans h1)

set_option maxHeartbeats 4000000 in
/-- Last stretch before the pads: from the visited points, the validity mask and the arguments, the preference vectors,
    the embedding rows, and the preference vectors scaled by the broadcast scale. -/
theorem stage_operands (W : Valuation τ sig (Elt Ideal)) (a0 : (⟨Cert.ReferenceIdeal.S1024x100000, .f32⟩ : BufTy).Contents (Elt Ideal)) (a1 : (⟨Cert.ReferenceIdeal.S1024x200, .i32⟩ : BufTy).Contents (Elt Ideal)) (a2 : (⟨Cert.ReferenceIdeal.S1024, .i32⟩ : BufTy).Contents (Elt Ideal)) (a3 : (⟨Cert.ReferenceIdeal.S100000, .i32⟩ : BufTy).Contents (Elt Ideal)) (a4 : (⟨Cert.ReferenceIdeal.S1000x256, .f32⟩ : BufTy).Contents (Elt Ideal)) (a5 : (⟨Cert.ReferenceIdeal.S_, .f32⟩ : BufTy).Contents (Elt Ideal))
    (h16 : W (Proc.devRef .tc main_v16) = Cert.ReferenceIdeal.Read.val_main_v16 (F := Ideal) a1 a2)
    (h14 : W (Proc.devRef .tc main_v14) = Cert.ReferenceIdeal.Read.val_main_v14 (F := Ideal) a2)
    (h3 : W (Proc.devRef .tc main_arg3) = a3) (h4 : W (Proc.devRef .tc main_arg4) = a4) (h5 : W (Proc.devRef .tc main_arg5) = a5) :
    StableHlo.after hostOps0_3 W (Proc.devRef .tc main_v40) = Ref.pref a1 a2 a3 a4
    ∧ StableHlo.after hostOps0_3 W (Proc.devRef .tc main_v47) = Ref.rows a3 a4
    ∧ StableHlo.after hostOps0_3 W (Proc.devRef .tc main_v49)
        = (mulf (Ref.pref a1 a2 a3 a4) (broadcastInDim S1024x256 ![] bcast_S_S1024x256 a5) : FVec Ideal S1024x256 .f32) := by
  simp only [hostOps0_3]
  after_results_simp
  rw [h16, h14, h3, h4, h5]
  exact ⟨rfl, rfl, rfl⟩

/-- Before the pads: the preference vectors and the embedding rows are the reference's stages `pref` and `rows` of the
    launch contents of the arguments, the scaled preference vectors are `pref` times the broadcast scale, and the
    predictions are as launched. -/
theorem before_pads (c : Dev nD) :
    beforePads m c (Proc.devRef .tc main_v40) = Ref.pref (m ((c.tc : Thread nD τ).loc main_arg1)) (m ((c.tc : Thread nD τ).loc main_arg2)) (m ((c.tc : Thread nD τ).loc main_arg3)) (m ((c.tc : Thread nD τ).loc main_arg4))
    ∧ beforePads m c (Proc.devRef .tc main_v47) = Ref.rows (m ((c.tc : Thread nD τ).loc main_arg3)) (m ((c.tc : Thread nD τ).loc main_arg4))
    ∧ beforePads m c (Proc.devRef .tc main_v49)
        = (mulf (Ref.pref (m ((c.tc : Thread nD τ).loc main_arg1)) (m ((c.tc : Thread nD τ).loc main_arg2)) (m ((c.tc : Thread nD τ).loc main_arg3)) (m ((c.tc : Thread nD τ).loc main_arg4)))
          (broadcastInDim S1024x256 ![] bcast_S_S1024x256 (m ((c.tc : Thread nD τ).loc main_arg5))) : FVec Ideal S1024x256 .f32)
    ∧ beforePads m c (Proc.devRef .tc main_arg0) = m ((c.tc : Thread nD τ).loc main_arg0) := by
  unfold beforePads
  generalize hW : (fun b => m (c, b) : Valuation τ sig (Elt Ideal)) = W
  have e0 : W (Proc.devRef .tc main_arg0) = m ((c.tc : Thread nD τ).loc main_arg0) := congrFun hW.symm _
  have e1 : W (Proc.devRef .tc main_arg1) = m ((c.tc : Thread nD τ).loc main_arg1) := congrFun hW.symm _
  have e2 : W (Proc.devRef .tc main_arg2) = m ((c.tc : Thread nD τ).loc main_arg2) := congrFun hW.symm _
  have e3 : W (Proc.devRef .tc main_arg3) = m ((c.tc : Thread nD τ).loc main_arg3) := congrFun hW.symm _
  have e4 : W (Proc.devRef .tc main_arg4) = m ((c.tc : Thread nD τ).loc main_arg4) := congrFun hW.symm _
  have e5 : W (Proc.devRef .tc main_arg5) = m ((c.tc : Thread nD τ).loc main_arg5) := congrFun hW.symm _
  obtain ⟨p0, p1, p2, p3, p4, p5⟩ := kept_positions W
  obtain ⟨s7, s14, slo, shi⟩ := stage_positions W
  obtain ⟨c14, c0, c1, c2, c3, c4, c5⟩ := kept_clip (StableHlo.after hostOps0 W)
  have s15 := stage_clip (StableHlo.after hostOps0 W) _ s7 slo shi
  obtain ⟨v14, v0, v1, v2, v3, v4, v5⟩ := kept_visits (StableHlo.after hostOps0_1 (StableHlo.after hostOps0 W))
  have s16 := stage_visits (StableHlo.after hostOps0_1 (StableHlo.after hostOps0 W)) _ _ s15 (c1.trans p1)
  obtain ⟨k0, k1, k2, k3, k4, k5⟩ := kept_operands (StableHlo.after hostOps0_2 (StableHlo.after hostOps0_1 (StableHlo.after hostOps0 W)))
  obtain ⟨r40, r47, r49⟩ := stage_operands (StableHlo.after hostOps0_2 (StableHlo.after hostOps0_1 (StableHlo.after hostOps0 W)))
    (W (Proc.devRef .tc main_arg0)) (W (Proc.devRef .tc main_arg1)) (W (Proc.devRef .tc main_arg2)) (W (Proc.devRef .tc main_arg3)) (W (Proc.devRef .tc main_arg4)) (W (Proc.devRef .tc main_arg5))
    s16 ((v14.trans c14).trans s14) ((v3.trans c3).trans p3) ((v4.trans c4).trans p4) ((v5.trans c5).trans p5)
  rw [e1, e2, e3, e4] at r40
  rw [e3, e4] at r47
  rw [e1, e2, e3, e4, e5] at r49
  exact ⟨r40, r47, r49, (((k0.trans v0).trans c0).trans p0).trans e0⟩

end Cert.Scores.Ker

end
-- ==== Proof.KerRun.lean ====
/-
  The kernel program's run, with its two results named.

  After the region @main cuts the padded score array back to its first 100000 columns: that slice is the first
  result.  The second result, the preference vectors, was computed before the region and nothing after touches it.
  Read at user `b` and point `l`, the first result is
      pred_base[b, l] + ∑ k, (pref[b, k] * alpha) * rows[l, k]
  — the padded score array (KerBlocks.lean) at an index inside the original extents, where its three operand arrays
  are the predictions, the scaled preference vectors and the embedding rows (KerHost.lean).
-/
import proofs.«125563_j61649960566862_1_alg».proof.Proof.KerBlocks
import proofs.«125563_j61649960566862_1_alg».proof.Proof.KerHost

set_option maxRecDepth 16384

noncomputable section

namespace Cert.Scores.Ker

open Cert.KernelIdeal Cert.KernelIdeal.Gen Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-- The kernel program's first result: the first 100000 columns of the padded score array. -/
def pred (c : Dev nD) : Vec Ideal S1024x100000 .f32 :=
  extractStridedSlice S1024x100000 ![0, 0]
    (scores (V m c (Pipeline.arrRef spec0 0)) (V m c (Pipeline.arrRef spec0 1)) (V m c (Pipeline.arrRef spec0 2)))
    slices_S1024x102400_S1024x100000_0_0

/-- After the region and the slice, the first result's buffer holds `pred`. -/
theorem pred_after (c : Dev nD) :
    Pipeline.afterTail₀ cfgs (dats (F := Ideal) m) 0 (V0 m) [hostOps1] c main_v56 = pred m c := by
  unfold Pipeline.afterTail₀ pred
  show StableHlo.after hostOps1 _ (Proc.devRef .tc main_v56) = _
  after_results
  exact congrArg (fun x => extractStridedSlice S1024x100000 ![0, 0] x slices_S1024x102400_S1024x100000_0_0)
    ((Pipeline.withArrays_arr spec0 launch0.win.arr_inj c (V0 m c) (fun w => (dats (F := Ideal) m 0 c).arrAt w cfg0.N) 3).trans (result_array m c))

/-- Nothing after the region writes the preference vectors: they end as the region found them. -/
theorem pref_after (c : Dev nD) :
    Pipeline.afterTail₀ cfgs (dats (F := Ideal) m) 0 (V0 m) [hostOps1] c main_v40 = V m c main_v40 := by
  unfold Pipeline.afterTail₀
  rw [StableHlo.after_of_forall_not_mem (b := Proc.devRef .tc main_v40) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v40 (by exact (by decide : ∀ w, Pipeline.arrRef spec0 w ≠ main_v40))]

/-- THE RUN: every weakly fair execution of the kernel program terminates with the first result at `pred`, the second at
    the preference vectors the region found, and the arguments unchanged. -/
theorem run : θ_run defs (onTc (τ := τ) (main (F := Ideal))) ⟨m, fun _ => 0, ρ⟩ fun r => ∀ c : Dev nD,
      r.2.mem ((c.tc : Thread nD τ).loc main_v56) = pred m c
      ∧ r.2.mem ((c.tc : Thread nD τ).loc main_v40) = V m c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v56 (Pipeline.mem_restRefs_of main_v56 (by decide) (by decide))).trans (pred_after m c),
      ((h c).2 main_v40 (Pipeline.mem_restRefs_of main_v40 (by decide) (by decide))).trans (pref_after m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

/-! ## The two results as functions of the arguments -/

/-- The three input windows' arrays are the padded predictions, the scaled preference vectors and the padded rows. -/
theorem operand_base (c : Dev nD) : (V m c (Pipeline.arrRef spec0 0) : Vec Ideal S1024x102400 .f32) = V m c main_v50 := rfl
theorem operand_prefs (c : Dev nD) : (V m c (Pipeline.arrRef spec0 1) : Vec Ideal S1024x256 .bf16) = V m c main_v53 := rfl
theorem operand_rows (c : Dev nD) : (V m c (Pipeline.arrRef spec0 2) : Vec Ideal S102400x256 .bf16) = V m c main_v54 := rfl

/-- The preference vectors the region found are the reference's stage `pref` of the arguments. -/
theorem pref_value (c : Dev nD) :
    V m c main_v40 = Ref.pref (m ((c.tc : Thread nD τ).loc main_arg1)) (m ((c.tc : Thread nD τ).loc main_arg2))
      (m ((c.tc : Thread nD τ).loc main_arg3)) (m ((c.tc : Thread nD τ).loc main_arg4)) :=
  (pref_kept m c).trans (before_pads m c).1

/-- THE KERNEL'S PREDICTION at user `b` and point `l`, the arguments' launch contents named `x0` … `x5`. -/
theorem pred_apply (c : Dev nD) (b : Fin 1024) (l : Fin 100000)
    (x0 : (⟨Cert.ReferenceIdeal.S1024x100000, .f32⟩ : BufTy).Contents (Elt Ideal)) (x1 : (⟨Cert.ReferenceIdeal.S1024x200, .i32⟩ : BufTy).Contents (Elt Ideal)) (x2 : (⟨Cert.ReferenceIdeal.S1024, .i32⟩ : BufTy).Contents (Elt Ideal)) (x3 : (⟨Cert.ReferenceIdeal.S100000, .i32⟩ : BufTy).Contents (Elt Ideal)) (x4 : (⟨Cert.ReferenceIdeal.S1000x256, .f32⟩ : BufTy).Contents (Elt Ideal)) (x5 : (⟨Cert.ReferenceIdeal.S_, .f32⟩ : BufTy).Contents (Elt Ideal))
    (e0 : m ((c.tc : Thread nD τ).loc main_arg0) = x0) (e1 : m ((c.tc : Thread nD τ).loc main_arg1) = x1) (e2 : m ((c.tc : Thread nD τ).loc main_arg2) = x2) (e3 : m ((c.tc : Thread nD τ).loc main_arg3) = x3) (e4 : m ((c.tc : Thread nD τ).loc main_arg4) = x4) (e5 : m ((c.tc : Thread nD τ).loc main_arg5) = x5) :
    pred m c (ix2 b l)
      = x0 (ix2 b l) + ∑ k : Fin 256, (Ref.pref x1 x2 x3 x4 (ix2 b k) * x5 ix0) * Ref.rows x3 x4 (ix2 l k) := by
  obtain ⟨h40, h47, h49, h0⟩ := before_pads m c
  rw [e0] at h0
  rw [e3, e4] at h47
  rw [e1, e2, e3, e4, e5] at h49
  unfold pred
  rw [extractStridedSlice_apply ![0, 0] _ slices_S1024x102400_S1024x100000_0_0 (ix2 b l)
    (ix2 b (⟨l.val, by omega⟩ : Fin 102400)) (fun a => by
      match a with
      | ⟨0, _⟩ => show b.val = 0 + b.val; omega
      | ⟨1, _⟩ => show l.val = 0 + l.val; omega)]
  unfold scores
  have eu : ∀ k : Fin 256, userAt (ix2 b (⟨l.val, by omega⟩ : Fin 102400)) k = ix2 b k := fun k =>
    funext fun a => Fin.ext (by match a with | ⟨0, _⟩ => rfl | ⟨1, _⟩ => rfl)
  have ep : ∀ k : Fin 256, pointAt (ix2 b (⟨l.val, by omega⟩ : Fin 102400)) k = ix2 (⟨l.val, by omega⟩ : Fin 102400) k := fun k =>
    funext fun a => Fin.ext (by match a with | ⟨0, _⟩ => rfl | ⟨1, _⟩ => rfl)
  simp only [eu, ep, operand_base, operand_prefs, operand_rows]
  rw [base_inside, h0]
  refine congrArg (x0 (ix2 b l) + ·) (Finset.sum_congr rfl fun k _ => ?_)
  rw [prefs_inside, rows_inside, h49, h47, mulf_apply,
    show broadcastInDim S1024x256 ![] bcast_S_S1024x256 x5 (ix2 b k) = x5 ix0 from
      broadcastInDim_apply _ bcast_S_S1024x256 x5 (ix2 b k) ix0 (fun a => a.elim0)]

end Cert.Scores.Ker

end
-- ==== Proof.lean ====
/-
  The kernel and its reference compute the same two arrays over the extended reals.

  Both programs take predictions `pred_base` (1024 users × 100000 points of interest), each user's recent visits, the
  region of every point of interest, a table of region embeddings (1000 × 256) and a scale `alpha`.  Both first form,
  by the same host operations, each user's preference vector `pref[b, ·]` — the mean of the embeddings of the regions of
  the user's last ten valid visits — and the embedding `rows[l, ·]` of every point's region; `pref` is the second
  result of both.  The first result is, in the reference,
      pred_base[b, l] + alpha * ∑ k, pref[b, k] * rows[l, k]
  (one matrix product on the host, scaled afterwards), and in the kernel program
      pred_base[b, l] + ∑ k, (pref[b, k] * alpha) * rows[l, k]
  (the preference vectors scaled first; the product and the addition done block by block by a Pallas kernel over a
  4 × 25 grid, on arrays padded to whole blocks and cut back afterwards).  The two agree because a factor moves across a
  finite sum of REAL numbers — and the entries of `pref` and `rows` are real numbers once the embedding table's are,
  which, with `alpha` real, is what the precondition gives (the predictions may be any extended reals).

  The modules: LibRealLaw (the law, and what keeps an extended real a real number), FiniteIn (the precondition read
  back), LibTypedRef (typed references' transports cancel), RefStages (the reference's run, its results read stage by stage), RefSide (the reference at an index, in the
  kernel's form), KerBody (the kernel's body at an index), KerBlocks
  (from blocks to the whole padded array), KerHost (what the region finds in its operand arrays), KerRun (the
  kernel program's run and its results at an index).  The frames of the two kernel programs are the generated ones;
  the reference's frame is its run with the results dropped; nothing was rewritten by the idealization, so that
  conjunct is trivial.
-/
import proofs.«125563_j61649960566862_1_alg».proof.Defs
import proofs.«125563_j61649960566862_1_alg».proof.Proof.Gen.Kernel
import proofs.«125563_j61649960566862_1_alg».proof.Proof.Gen.Kernel.Skeleton
import proofs.«125563_j61649960566862_1_alg».proof.Proof.Gen.Kernel.Launch
import proofs.«125563_j61649960566862_1_alg».proof.Proof.Gen.Kernel.Points
import proofs.«125563_j61649960566862_1_alg».proof.Proof.Gen.Kernel.Frame
import proofs.«125563_j61649960566862_1_alg».proof.Proof.Gen.KernelIdeal
import proofs.«125563_j61649960566862_1_alg».proof.Proof.Gen.KernelIdeal.Skeleton
import proofs.«125563_j61649960566862_1_alg».proof.Proof.Gen.KernelIdeal.Launch
import proofs.«125563_j61649960566862_1_alg».proof.Proof.Gen.KernelIdeal.Points
import proofs.«125563_j61649960566862_1_alg».proof.Proof.Gen.KernelIdeal.Frame
import proofs.«125563_j61649960566862_1_alg».proof.Proof.Gen.ReferenceIdeal
import proofs.«125563_j61649960566862_1_alg».proof.Proof.Gen.Pre_finite_inputs
import proofs.«125563_j61649960566862_1_alg».proof.Proof.RefRead
import proofs.«125563_j61649960566862_1_alg».proof.Proof.RefStages
import proofs.«125563_j61649960566862_1_alg».proof.Proof.RefSide
import proofs.«125563_j61649960566862_1_alg».proof.Proof.FiniteIn
import proofs.«125563_j61649960566862_1_alg».proof.Proof.KerRun
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.Scores.Ref.run m ρ)

/-- From memories agreeing on the arguments both programs run; the kernel program's first result is
    `pred_base + ∑ (pref * alpha) * rows`, the reference's `pred_base + alpha * ∑ pref * rows` — equal entry by entry,
    the entries of `pref`, `rows` and `alpha` being real under the precondition — and both second results are `pref`. -/
theorem algebraic : Cert.algebraic_KernelIdeal_ReferenceIdeal := by
  intro m ρ m' ρ' hpre hagree
  refine ⟨fun c => Cert.Scores.Ker.pred m c, fun c => Cert.KernelIdeal.Gen.V m c Cert.KernelIdeal.main_v40,
    Cert.Scores.Ker.run m ρ, ?_⟩
  refine (θ_run Cert.ReferenceIdeal.defs _ _).mono (fun _ h c => ⟨(h c).1.trans ?_, (h c).2.1.trans ?_, (h c).2.2⟩)
    (Cert.Scores.Ref.run m' ρ')
  · obtain ⟨h4, h5⟩ := Cert.Scores.real_of_pre _ _ _ _ _ _ (hpre c)
    obtain ⟨e0, e1, e2, e3, e4, e5⟩ := hagree c
    rw [e0, e1, e2, e3, e4, e5]
    funext i
    obtain ⟨b, l, rfl⟩ : ∃ (b : Fin 1024) (l : Fin 100000), i = ix2 b l := ⟨i 0, i 1, eq_ix2 i⟩
    exact (Cert.Scores.Ref.pred_apply _ _ _ _ _ _ h4 h5 b l).trans (Cert.Scores.Ker.pred_apply m c b l _ _ _ _ _ _ rfl rfl rfl rfl rfl rfl).symm
  · obtain ⟨e0, e1, e2, e3, e4, e5⟩ := hagree c
    rw [e1, e2, e3, e4]
    exact (Cert.Scores.Ker.pref_value m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
